-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S512x2048 : Shape := ⟨2, ![512, 2048]⟩
abbrev S512x256 : Shape := ⟨2, ![512, 256]⟩
abbrev S2048x256 : Shape := ⟨2, ![2048, 256]⟩

abbrev nBuf : Space → Nat
  | .hbm => 18
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  pads_S256_S256_000 : S256.Pads (![0] : Fin 1 → Nat) ![0] ![0] S256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S4096x256_S4096x256_0_0 : (Rect.unit (s := S4096x256) ![0, 0] S4096x256.size inb_S4096x256_S4096x256_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .f32 = 32 ∨ (Rect.block (s := S4096x256) S512x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S256x512 : Shape := ⟨2, ![256, 512]⟩
abbrev S512x256 : Shape := ⟨2, ![512, 256]⟩

abbrev nBuf : Space → Nat
  | .hbm => 19
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S4096x256, .f32⟩
  | .hbm, ⟨18, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  pads_S256_S256_000 : S256.Pads (![0] : Fin 1 → Nat) ![0] ![0] S256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.BRuns.lean ====
/-
  The fused graph-convolution kernel: what its runs share.

  @main pads the four arguments with zero padding, reshapes the bias to a row, and launches ONE kernel region on a
  2 × 4 grid. At every grid point the body receives the node features and the weights whole, two column halves of a
  512-row stripe of the adjacency (both halves are blocks of ONE array), and the bias row; it keeps the product
  features · weights in a scratch buffer that it fills when the second grid coordinate is 0 and only reads otherwise.
  Here: the buffers' contents when the region is entered, @main up to the region, each window's block at a point, the
  closed form of the body's one condition, and the memrefs the body is called with.
-/
import proofs.«111126_g2000404061440129_pallasbulk_871_15_alg».proof.Proof.Gen.Kernel.Launch
import proofs.«111126_g2000404061440129_pallasbulk_871_15_alg».proof.Proof.Gen.Kernel.Skeleton
import proofs.«111126_g2000404061440129_pallasbulk_871_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostStretches : List (List (HloOp τ sig (Elt F))) :=
  [hostOps0, hostOps0_1, hostOps0_2, hostOps0_3, hostOps0_4, hostOps0_5, hostOps0_6, hostOps0_7, hostOps0_8]

/-- Core `c`'s TensorCore buffers when the region is entered: the launch contents after the host operations. -/
abbrev V (c : Dev nD) (b : Ref sig .tc) : Buf (Elt F) ((c : Thread nD τ).loc b) :=
  StableHlo.after (List.flatten (hostStretches (F := F))) (fun b => m (c, b)) b

theorem hostStretches_sub : (hostStretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

theorem hostStretches_fresh : (hostStretches (F := F)).Forall fun ops => ops.Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) hostStretches_sub hostStretches_fresh main_chain

/-- No host operation writes an argument's buffer: the region finds it as launched. -/
theorem V_of_not_written (c : Dev nD) (b : Ref sig .tc)
    (hb : b ≠ main_c ∧ b ≠ main_call0_v0 ∧ b ≠ main_v0 ∧ b ≠ main_c_0 ∧ b ≠ main_call1_v0 ∧ b ≠ main_v1 ∧ b ≠ main_c_1 ∧ b ≠ main_call2_v0 ∧ b ≠ main_v2
      ∧ b ≠ main_c_2 ∧ b ≠ main_call3_v0 ∧ b ≠ main_v3 ∧ b ≠ main_v4) :
    V m c b = m ((c : Thread nD τ).loc b) := by
  obtain ⟨h1, h2, h3, h4, h5, h6, h7, h8, h9, h10, h11, h12, h13⟩ := hb
  refine StableHlo.after_of_forall_not_mem (b := Proc.devRef .tc b) _ _ (List.forall_iff_forall_mem.mp ?_)
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by assumption)

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch: the second grid coordinate is 0. -/
abbrev cond0_0 (i : grid0.Coords) : Prop := (Scalar.cmpi .ne (Scalar.extui (Scalar.cmpi .eq (BitVec.ofNat 32 (i 1).val) 0#32)) 0#32) = 1#1
/-- It holds at the points 0 and 4 of the eight. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

abbrev VO0_5 : View sig .tc .vmem S512x256 .f32 := (Memref.whole cc0_stg5_0 : Memref sig .tc .vmem S512x256 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
/-- The scratch the kernel carries between points: the product features · weights. -/
abbrev scM0_0 : Memref sig .tc .vmem S4096x256 .bf16 := Memref.whole cc0_scratch0
abbrev VS0_0 : View sig .tc .vmem S4096x256 .bf16 := scM0_0.view

/-- The scoped rest: the scratch, whole at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.BRunA.lean ====
/-
  The fused kernel's body at a grid point whose second coordinate is 0: it loads the features and the weights, stores
  their product into the scratch (whatever the scratch held), then loads the two adjacency halves, the two halves of
  the scratch it has just written and the bias row, and stores the stripe of the result. The run finds what each
  store leaves as a list of pieces: one piece for the scratch, one for the output block.
-/
import proofs.«111126_g2000404061440129_pallasbulk_871_15_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is taken: from the inputs' staging memrefs at their contents, the output's and the
    scratch at anything, it runs to the continuation holding the inputs' as they were, the output's buffer and the
    scratch with the found pieces written. -/
noncomputable def kernelRun0_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i)
    (x0 : Vec F S4096x256 .f32) (x1 : Vec F S256x256 .f32) (x2 : Vec F S512x2048 .f32) (x3 : Vec F S512x2048 .f32) (x4 : Vec F S1x256 .f32) :
    Σ' (L5 : List (View.Piece (Elt F) S512x256 .f32)), { LS0 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS0

end Cert.Kernel.Hand

end
-- ==== Proof.BRunB.lean ====
/-
  The fused kernel's body at a grid point whose second coordinate is not 0: the scratch already holds the product of
  the features and the weights; the body only reads it (its two row halves), beside the two adjacency halves and the
  bias row, and stores the stripe of the result. The run finds the one piece the output block is left with; the scratch
  is handed back as it was.
-/
import proofs.«111126_g2000404061440129_pallasbulk_871_15_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is not taken: from the inputs' staging memrefs and the scratch at their contents, the
    output's at anything, it runs to the continuation holding them as they were and the output's buffer with the
    found piece written. -/
noncomputable def kernelRun0_B (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i)
    (x0 : Vec F S4096x256 .f32) (x1 : Vec F S256x256 .f32) (x2 : Vec F S512x2048 .f32) (x3 : Vec F S512x2048 .f32) (x4 : Vec F S1x256 .f32) (xs0 : Vec F S4096x256 .bf16) :
    { L5 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS0

end Cert.Kernel.Hand

end
-- ==== Proof.LibFrameSharedTrack.lean ====
/-
  The frame run of a program with ONE kernel region whose input windows may read the same array, for a kernel that
  CARRIES contents of its scratch buffers from one grid point to the next.

  The region invariant `Φ` of the proof data is any family the certificate states point by point; what is asked of it is
  that the scoped buffers no window stages, each at some contents, give it before the first point (`hin`) and that
  after the last point it gives them back (`hout`). The arrays' full shares are divided among the windows that read
  them as `hsplit` says. The run concludes that every weakly fair execution terminates, faults nowhere, leaves every
  window's array at what the write-backs of all points make of its entry contents (`Dat.arrAt … N`), and leaves every
  unscoped buffer that is no window's array at its contents when the region was entered.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run for windows that may share arrays, with a tracking invariant: the scoped rest yields the invariant
    before point 0 and the invariant yields it back after the last point. Every window's array ends at
    `Dat.arrAt w N`; every other unscoped buffer ends as the region found it. -/
theorem θ_run_frame_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfg).spec c (V c) : sProp 𝕄)
      ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = V c b) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr [H]
      · iempintro
      · iexact H)
    (hin := fun c => by
      refine Entails.trans ?_ (hin c)
      iintro ⟨-, H⟩
      iexact H)
    (hout := fun c => by
      refine (hout c).trans ?_
      iintro H
      isplitr [H]
      · iempintro
      · iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

/-- info: 'Idealize.ShloMosaic.Pipeline.θ_run_frame_shared_track' depends on axioms: [propext, Classical.choice, Quot.sound] -/
#guard_msgs in #print axioms θ_run_frame_shared_track

end Idealize.ShloMosaic.Pipeline

end
-- ==== Proof.BFrame.lean ====
/-
  The fused graph-convolution kernel's frame run.

  What the body leaves: where the branch is taken, one piece covering the scratch (the product of the features and the
  weights) and one covering the output block; where it is not, one piece covering the output block, the scratch
  untouched. Point by point this gives what the output's staging buffer and the scratch hold after each grid point
  (`outsAt0`), the region invariant (the scratch at anything before the first point, then at what the point before
  left), and the proof data. The adjacency is read through two windows: its buffer's full share is halved between them.
-/
import proofs.«111126_g2000404061440129_pallasbulk_871_15_alg».proof.Proof.BRunA
import proofs.«111126_g2000404061440129_pallasbulk_871_15_alg».proof.Proof.BRunB
import proofs.«111126_g2000404061440129_pallasbulk_871_15_alg».proof.Proof.LibFrameSharedTrack

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) (y : S512x256.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S512x256.size (by sl_kernel_rfl) y

/-- The output block after a point where the branch is taken. -/
def out0_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) : Vec F S512x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

theorem scover0_A_0 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) (y : S4096x256.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S4096x256.size (by sl_kernel_rfl) y

/-- The scratch after a point where the branch is taken. -/
def sout0_A_0 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2 x3 x4).2.1)

theorem cover0_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i) (x0 : Vec F S4096x256 .f32) (x1 : Vec F S256x256 .f32) (x2 : Vec F S512x2048 .f32) (x3 : Vec F S512x2048 .f32) (x4 : Vec F S1x256 .f32) (xs0 : Vec F S4096x256 .bf16) (y : S512x256.Idx) :
    ∃ pc ∈ (kernelRun0_B c i arg2 harg2 arg3 harg3 arg4 harg4 arg5 harg5 arg6 harg6 arg7 harg7 arg8 harg8 hc0 x0 x1 x2 x3 x4 xs0).1, y ∈ pc.1.set :=
  View.cover_of_tiledL (kernelRun0_B c i arg2 harg2 arg3 harg3 arg4 harg4 arg5 harg5 arg6 harg6 arg7 harg7 arg8 harg8 hc0 x0 x1 x2 x3 x4 xs0).1 S512x256.size (by sl_kernel_rfl) y

/-- The output block after a point where the branch is not taken, the scratch holding `xs0`. -/
def out0_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i) (x0 : Vec F S4096x256 .f32) (x1 : Vec F S256x256 .f32) (x2 : Vec F S512x2048 .f32) (x3 : Vec F S512x2048 .f32) (x4 : Vec F S1x256 .f32) (xs0 : Vec F S4096x256 .bf16) : Vec F S512x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xs0).1)

/-! ## What the output's buffer and the scratch hold after each point -/

/-- After a point where the branch is taken: the pair (output block, scratch). -/
def outA (c : Dev nD) (t : Fin cfg0.N) (h : cond0_0 (grid0.coords t)) : Vec F S512x256 .f32 × Vec F S4096x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t))

/-- After a point where it is not, the scratch holding `xs0` before and after. -/
def outB (c : Dev nD) (t : Fin cfg0.N) (h : ¬cond0_0 (grid0.coords t)) (xs0 : Vec F S4096x256 .bf16) : Vec F S512x256 .f32 × Vec F S4096x256 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t) xs0, xs0)

/-- The accumulation over the grid's points in order. -/
def outsAt0 (c : Dev nD) : (n : ℕ) → n < cfg0.N → Vec F S512x256 .f32 × Vec F S4096x256 .bf16
  | 0, hn => outA m c ⟨0, hn⟩ ((hcond0_0 ⟨0, hn⟩).mpr (Nat.zero_mod _))
  | n + 1, hn =>
    if h0 : (n + 1) % 4 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn)).2

theorem outsAt0_A (c : Dev nD) (t : Fin cfg0.N) (h0 : t.val % 4 = 0) :
    outsAt0 m c t.val t.isLt = outA m c t ((hcond0_0 t).mpr h0) := by
  obtain ⟨n, hn⟩ := t
  cases n with
  | zero => exact rfl
  | succ n => exact dif_pos h0

theorem outsAt0_B (c : Dev nD) (t : Fin cfg0.N) (h0 : ¬t.val % 4 = 0) :
    outsAt0 m c t.val t.isLt = outB m c t (fun h => h0 ((hcond0_0 t).mp h)) (outsAt0 m c (t.val - 1) (Nat.lt_of_le_of_lt (Nat.sub_le _ _) t.isLt)).2 := by
  obtain ⟨n, hn⟩ := t
  cases n with
  | zero => exact absurd (Nat.zero_mod _) h0
  | succ n => exact dif_neg h0

/-- The region invariant before position `n`: the scratch at anything before the first point, then at what the point
    before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block, the output's at
    `outsAt0`; the invariant `PhiS`; nothing owed; the adjacency's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4800000 in
/-- The body at any point: the inputs' memrefs hold their blocks; the closed form of the condition says which case the
    point is in; the invariant hands the body the scratch (at anything at the first point, at what the point before left
    afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5]
  have hN : t.val < 8 := lt_of_lt_of_eq t.isLt (show cfg0.N = 8 from N_0)
  by_cases h0 : t.val % 4 = 0
  · rw [outsAt0_A m c t h0]
    unfold outA out0_A_5 sout0_A_0; (try dsimp only)
    by_cases hz : t.val = 0
    · rw [PhiS_castSucc m c t, PhiS_zero m c _ _ hz, scopedRest_eq]
      iintro ⟨HS0, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
  · have hz : t.val ≠ 0 := fun h => h0 (by rw [h])
    rw [outsAt0_B m c t h0]
    unfold outB out0_B_5; (try dsimp only)
    rw [PhiS_castSucc m c t, PhiS_pos m c _ _ hz]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- The scoped rest is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the scratch's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_eq]
  iintro HS0
  iexists _; iexact HS0

end Cert.Kernel.Hand

end
-- ==== Proof.BRun.lean ====
/-
  The fused graph-convolution kernel: the run of @main.

  The adjacency's buffer, held whole when the region is entered, is divided between the two windows that read it (the
  left and the right half of its full share); every other array goes to its one window whole. With the body
  obligation and the tracking invariant this gives the run: every weakly fair execution terminates without a fault,
  the result array ends at what the eight write-backs make of it, and no other unscoped buffer changes — in
  particular the four arguments.
-/
import proofs.«111126_g2000404061440129_pallasbulk_871_15_alg».proof.Proof.BFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, make the proof data's arrays at entry: the
    adjacency's share is halved between windows 2 and 3. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have e : (bigSep (Finset.univ.image (Pipeline.arrRef spec0)) fun b => (((c : Thread nD τ).loc b) ↦{fullShare} V m c b : sProp 𝕄))
      = iprop((((c : Thread nD τ).loc main_v0) ↦{fullShare} V m c main_v0) ∗ (((c : Thread nD τ).loc main_v2) ↦{fullShare} V m c main_v2)
          ∗ (((c : Thread nD τ).loc main_v1) ↦{fullShare} V m c main_v1) ∗ (((c : Thread nD τ).loc main_v4) ↦{fullShare} V m c main_v4)
          ∗ (((c : Thread nD τ).loc main_v5) ↦{fullShare} V m c main_v5)) :=
    bigSep_eq_bigSepL_of_eq [main_v0, main_v2, main_v1, main_v4, main_v5] (by decide) (by decide) _
  rw [bigSep_W0, e]
  rw [(arr_whole0 0).set_eq_univ, (arr_whole0 1).set_eq_univ, (arr_whole0 2).set_eq_univ, (arr_whole0 4).set_eq_univ, (arr_whole0 5).set_eq_univ]
  iintro ⟨H0, H2, H1, H4, H5⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  isplitl [H4]; · iexact H4
  iexact H5

-- the launch theorem's implicit arguments are found by unifying its conclusion with this one
set_option backward.isDefEq.respectTransparency.types false in
/-- The run: every window's array ends at `Dat.arrAt w N`, every other unscoped buffer as the region found it. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- info: 'Cert.Kernel.Hand.run_main' depends on axioms: [propext, Classical.choice, Quot.sound] -/
#guard_msgs in #print axioms run_main

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.Kernel.Hand

end
-- ==== Proof.KRuns.lean ====
/-
  The fused graph-convolution kernel: what its runs share.

  @main pads the four arguments with zero padding, reshapes the bias to a row, and launches ONE kernel region on a
  2 × 4 grid. At every grid point the body receives the node features and the weights whole, two column halves of a
  512-row stripe of the adjacency (both halves are blocks of ONE array), and the bias row; it keeps the product
  features · weights in a scratch buffer that it fills when the second grid coordinate is 0 and only reads otherwise.
  Here: the buffers' contents when the region is entered, @main up to the region, each window's block at a point, the
  closed form of the body's one condition, and the memrefs the body is called with.
-/
import proofs.«111126_g2000404061440129_pallasbulk_871_15_alg».proof.Proof.Gen.KernelIdeal.Launch
import proofs.«111126_g2000404061440129_pallasbulk_871_15_alg».proof.Proof.Gen.KernelIdeal.Skeleton
import proofs.«111126_g2000404061440129_pallasbulk_871_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostStretches : List (List (HloOp τ sig (Elt F))) :=
  [hostOps0, hostOps0_1, hostOps0_2, hostOps0_3, hostOps0_4, hostOps0_5, hostOps0_6, hostOps0_7, hostOps0_8]

/-- Core `c`'s TensorCore buffers when the region is entered: the launch contents after the host operations. -/
abbrev V (c : Dev nD) (b : Ref sig .tc) : Buf (Elt F) ((c : Thread nD τ).loc b) :=
  StableHlo.after (List.flatten (hostStretches (F := F))) (fun b => m (c, b)) b

theorem hostStretches_sub : (hostStretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

theorem hostStretches_fresh : (hostStretches (F := F)).Forall fun ops => ops.Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) hostStretches_sub hostStretches_fresh main_chain

/-- No host operation writes an argument's buffer: the region finds it as launched. -/
theorem V_of_not_written (c : Dev nD) (b : Ref sig .tc)
    (hb : b ≠ main_c ∧ b ≠ main_call0_v0 ∧ b ≠ main_v0 ∧ b ≠ main_c_0 ∧ b ≠ main_call1_v0 ∧ b ≠ main_v1 ∧ b ≠ main_c_1 ∧ b ≠ main_call2_v0 ∧ b ≠ main_v2
      ∧ b ≠ main_c_2 ∧ b ≠ main_call3_v0 ∧ b ≠ main_v3 ∧ b ≠ main_v4) :
    V m c b = m ((c : Thread nD τ).loc b) := by
  obtain ⟨h1, h2, h3, h4, h5, h6, h7, h8, h9, h10, h11, h12, h13⟩ := hb
  refine StableHlo.after_of_forall_not_mem (b := Proc.devRef .tc b) _ _ (List.forall_iff_forall_mem.mp ?_)
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by assumption)

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch: the second grid coordinate is 0. -/
abbrev cond0_0 (i : grid0.Coords) : Prop := (Scalar.cmpi .ne (Scalar.extui (Scalar.cmpi .eq (BitVec.ofNat 32 (i 1).val) 0#32)) 0#32) = 1#1
/-- It holds at the points 0 and 4 of the eight. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

abbrev VO0_5 : View sig .tc .vmem S512x256 .f32 := (Memref.whole cc0_stg5_0 : Memref sig .tc .vmem S512x256 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
/-- The scratch the kernel carries between points: the product features · weights. -/
abbrev scM0_0 : Memref sig .tc .vmem S4096x256 .bf16 := Memref.whole cc0_scratch0
abbrev VS0_0 : View sig .tc .vmem S4096x256 .bf16 := scM0_0.view

/-- The scoped rest: the scratch, whole at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KRunA.lean ====
/-
  The fused kernel's body at a grid point whose second coordinate is 0: it loads the features and the weights, stores
  their product into the scratch (whatever the scratch held), then loads the two adjacency halves, the two halves of
  the scratch it has just written and the bias row, and stores the stripe of the result. The run finds what each
  store leaves as a list of pieces: one piece for the scratch, one for the output block.
-/
import proofs.«111126_g2000404061440129_pallasbulk_871_15_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is taken: from the inputs' staging memrefs at their contents, the output's and the
    scratch at anything, it runs to the continuation holding the inputs' as they were, the output's buffer and the
    scratch with the found pieces written. -/
noncomputable def kernelRun0_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i)
    (x0 : Vec F S4096x256 .f32) (x1 : Vec F S256x256 .f32) (x2 : Vec F S512x2048 .f32) (x3 : Vec F S512x2048 .f32) (x4 : Vec F S1x256 .f32) :
    Σ' (L5 : List (View.Piece (Elt F) S512x256 .f32)), { LS0 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS0

end Cert.KernelIdeal.Hand

end
-- ==== Proof.KRunB.lean ====
/-
  The fused kernel's body at a grid point whose second coordinate is not 0: the scratch already holds the product of
  the features and the weights; the body only reads it (its two row halves), beside the two adjacency halves and the
  bias row, and stores the stripe of the result. The run finds the one piece the output block is left with; the scratch
  is handed back as it was.
-/
import proofs.«111126_g2000404061440129_pallasbulk_871_15_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is not taken: from the inputs' staging memrefs and the scratch at their contents, the
    output's at anything, it runs to the continuation holding them as they were and the output's buffer with the
    found piece written. -/
noncomputable def kernelRun0_B (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i)
    (x0 : Vec F S4096x256 .f32) (x1 : Vec F S256x256 .f32) (x2 : Vec F S512x2048 .f32) (x3 : Vec F S512x2048 .f32) (x4 : Vec F S1x256 .f32) (xs0 : Vec F S4096x256 .bf16) :
    { L5 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS0

end Cert.KernelIdeal.Hand

end
-- ==== Proof.KFrame.lean ====
/-
  The fused graph-convolution kernel's frame run.

  What the body leaves: where the branch is taken, one piece covering the scratch (the product of the features and the
  weights) and one covering the output block; where it is not, one piece covering the output block, the scratch
  untouched. Point by point this gives what the output's staging buffer and the scratch hold after each grid point
  (`outsAt0`), the region invariant (the scratch at anything before the first point, then at what the point before
  left), and the proof data. The adjacency is read through two windows: its buffer's full share is halved between them.
-/
import proofs.«111126_g2000404061440129_pallasbulk_871_15_alg».proof.Proof.KRunA
import proofs.«111126_g2000404061440129_pallasbulk_871_15_alg».proof.Proof.KRunB
import proofs.«111126_g2000404061440129_pallasbulk_871_15_alg».proof.Proof.LibFrameSharedTrack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) (y : S512x256.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S512x256.size (by sl_kernel_rfl) y

/-- The output block after a point where the branch is taken. -/
def out0_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) : Vec F S512x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

theorem scover0_A_0 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) (y : S4096x256.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S4096x256.size (by sl_kernel_rfl) y

/-- The scratch after a point where the branch is taken. -/
def sout0_A_0 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2 x3 x4).2.1)

theorem cover0_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i) (x0 : Vec F S4096x256 .f32) (x1 : Vec F S256x256 .f32) (x2 : Vec F S512x2048 .f32) (x3 : Vec F S512x2048 .f32) (x4 : Vec F S1x256 .f32) (xs0 : Vec F S4096x256 .bf16) (y : S512x256.Idx) :
    ∃ pc ∈ (kernelRun0_B c i arg2 harg2 arg3 harg3 arg4 harg4 arg5 harg5 arg6 harg6 arg7 harg7 arg8 harg8 hc0 x0 x1 x2 x3 x4 xs0).1, y ∈ pc.1.set :=
  View.cover_of_tiledL (kernelRun0_B c i arg2 harg2 arg3 harg3 arg4 harg4 arg5 harg5 arg6 harg6 arg7 harg7 arg8 harg8 hc0 x0 x1 x2 x3 x4 xs0).1 S512x256.size (by sl_kernel_rfl) y

/-- The output block after a point where the branch is not taken, the scratch holding `xs0`. -/
def out0_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i) (x0 : Vec F S4096x256 .f32) (x1 : Vec F S256x256 .f32) (x2 : Vec F S512x2048 .f32) (x3 : Vec F S512x2048 .f32) (x4 : Vec F S1x256 .f32) (xs0 : Vec F S4096x256 .bf16) : Vec F S512x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xs0).1)

/-! ## What the output's buffer and the scratch hold after each point -/

/-- After a point where the branch is taken: the pair (output block, scratch). -/
def outA (c : Dev nD) (t : Fin cfg0.N) (h : cond0_0 (grid0.coords t)) : Vec F S512x256 .f32 × Vec F S4096x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t))

/-- After a point where it is not, the scratch holding `xs0` before and after. -/
def outB (c : Dev nD) (t : Fin cfg0.N) (h : ¬cond0_0 (grid0.coords t)) (xs0 : Vec F S4096x256 .bf16) : Vec F S512x256 .f32 × Vec F S4096x256 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t) xs0, xs0)

/-- The accumulation over the grid's points in order. -/
def outsAt0 (c : Dev nD) : (n : ℕ) → n < cfg0.N → Vec F S512x256 .f32 × Vec F S4096x256 .bf16
  | 0, hn => outA m c ⟨0, hn⟩ ((hcond0_0 ⟨0, hn⟩).mpr (Nat.zero_mod _))
  | n + 1, hn =>
    if h0 : (n + 1) % 4 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn)).2

theorem outsAt0_A (c : Dev nD) (t : Fin cfg0.N) (h0 : t.val % 4 = 0) :
    outsAt0 m c t.val t.isLt = outA m c t ((hcond0_0 t).mpr h0) := by
  obtain ⟨n, hn⟩ := t
  cases n with
  | zero => exact rfl
  | succ n => exact dif_pos h0

theorem outsAt0_B (c : Dev nD) (t : Fin cfg0.N) (h0 : ¬t.val % 4 = 0) :
    outsAt0 m c t.val t.isLt = outB m c t (fun h => h0 ((hcond0_0 t).mp h)) (outsAt0 m c (t.val - 1) (Nat.lt_of_le_of_lt (Nat.sub_le _ _) t.isLt)).2 := by
  obtain ⟨n, hn⟩ := t
  cases n with
  | zero => exact absurd (Nat.zero_mod _) h0
  | succ n => exact dif_neg h0

/-- The region invariant before position `n`: the scratch at anything before the first point, then at what the point
    before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block, the output's at
    `outsAt0`; the invariant `PhiS`; nothing owed; the adjacency's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4800000 in
/-- The body at any point: the inputs' memrefs hold their blocks; the closed form of the condition says which case the
    point is in; the invariant hands the body the scratch (at anything at the first point, at what the point before left
    afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5]
  have hN : t.val < 8 := lt_of_lt_of_eq t.isLt (show cfg0.N = 8 from N_0)
  by_cases h0 : t.val % 4 = 0
  · rw [outsAt0_A m c t h0]
    unfold outA out0_A_5 sout0_A_0; (try dsimp only)
    by_cases hz : t.val = 0
    · rw [PhiS_castSucc m c t, PhiS_zero m c _ _ hz, scopedRest_eq]
      iintro ⟨HS0, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
  · have hz : t.val ≠ 0 := fun h => h0 (by rw [h])
    rw [outsAt0_B m c t h0]
    unfold outB out0_B_5; (try dsimp only)
    rw [PhiS_castSucc m c t, PhiS_pos m c _ _ hz]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- The scoped rest is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the scratch's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_eq]
  iintro HS0
  iexists _; iexact HS0

end Cert.KernelIdeal.Hand

end
-- ==== Proof.KPieces.lean ====
/-
  The fused graph-convolution kernel: what each store leaves, as the body's arithmetic of the values it loaded.

  Where the branch is taken the scratch ends holding the product payload of the features and the weights, and the
  output block the stripe payload of the two adjacency halves, the top and the bottom 2048 rows of that product, and
  the bias row. Where it is not taken the output block is the same stripe payload over the top and bottom rows of
  what the scratch already held.
-/
import proofs.«111126_g2000404061440129_pallasbulk_871_15_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Rows 0 … 2047 of a 4096 × 256 array. -/
abbrev rTop : Rect S4096x256 := Rect.unit (s := S4096x256) ![0, 0] S2048x256.size Gen.inb_S4096x256_S2048x256_0_0
/-- Rows 2048 … 4095. -/
abbrev rBot : Rect S4096x256 := Rect.unit (s := S4096x256) ![2048, 0] S2048x256.size Gen.inb_S4096x256_S2048x256_2048_0

/-- The top and the bottom row halves of a scratch's contents, as the body loads them. -/
abbrev topRows (s : Vec F S4096x256 .bf16) : Vec F S2048x256 .bf16 := View.ld s rTop
abbrev botRows (s : Vec F S4096x256 .bf16) : Vec F S2048x256 .bf16 := View.ld s rBot

theorem cov1 (w : S4096x256.Idx → Elt F .bf16) (y : S4096x256.Idx) :
    ∃ p ∈ [(⟨Rect.unit (s := S4096x256) ![0, 0] S4096x256.size Gen.inb_S4096x256_S4096x256_0_0, w⟩ : View.Piece (Elt F) S4096x256 .bf16)], y ∈ p.1.set :=
  ⟨_, List.mem_singleton_self _, View.mem_set_unit_zero hz Gen.inb_S4096x256_S4096x256_0_0 y⟩

theorem sout0_A_0_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) :
    sout0_A_0 c i arg2 harg2 arg3 harg3 arg4 harg4 arg5 harg5 arg6 harg6 arg7 harg7 arg8 harg8 hc0 x0 x1 x2 x3 x4 = Gen.k0_pay1 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg2.read_unread, harg3.read_unread, View.ld_unit_zero (S := S4096x256) hz, View.ld_unit_zero (S := S256x256) hz]

theorem out0_A_5_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : cond0_0 i) (x0 : Vec F S4096x256 .f32) (x1 : Vec F S256x256 .f32) (x2 : Vec F S512x2048 .f32) (x3 : Vec F S512x2048 .f32) (x4 : Vec F S1x256 .f32) :
    out0_A_5 c i arg2 harg2 arg3 harg3 arg4 harg4 arg5 harg5 arg6 harg6 arg7 harg7 arg8 harg8 hc0 x0 x1 x2 x3 x4 = Gen.k0_pay2 x2 (topRows (Gen.k0_pay1 x0 x1)) x3 (botRows (Gen.k0_pay1 x0 x1)) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg2.read_unread, harg3.read_unread, harg4.read_unread, harg5.read_unread, harg6.read_unread,
    View.ld_unit_zero (S := S4096x256) hz, View.ld_unit_zero (S := S256x256) hz, View.ld_unit_zero (S := S512x2048) hz, View.ld_unit_zero (S := S1x256) hz]
  rw [View.readCov_eq_canon_ld arg8.view _ rTop (cov1 _), View.readCov_eq_canon_ld arg8.view _ rBot (cov1 _), View.canon_unit_zero hz]

theorem out0_B_5_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .bf16) (harg8 : arg8.IsWhole) (hc0 : ¬cond0_0 i) (x0 : Vec F S4096x256 .f32) (x1 : Vec F S256x256 .f32) (x2 : Vec F S512x2048 .f32) (x3 : Vec F S512x2048 .f32) (x4 : Vec F S1x256 .f32) (xs0 : Vec F S4096x256 .bf16) :
    out0_B_5 c i arg2 harg2 arg3 harg3 arg4 harg4 arg5 harg5 arg6 harg6 arg7 harg7 arg8 harg8 hc0 x0 x1 x2 x3 x4 xs0 = Gen.k0_pay2 x2 (topRows xs0) x3 (botRows xs0) x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz]
  simp only [View.readAt_eq_ld, harg4.read_unread, harg5.read_unread, harg6.read_unread, harg8.read_unread,
    View.ld_unit_zero (S := S512x2048) hz, View.ld_unit_zero (S := S1x256) hz]

end Cert.KernelIdeal.Hand

end
-- ==== Proof.KBlocks.lean ====
/-
  Each window's block at a grid point, read at an index.

  The grid has eight points; point t works on the 512-row stripe t of the adjacency and of the output. A block's
  element sits in its array, on each axis, at the block index times the block's extent plus its own coordinate. The
  node features, the weights and the bias row are passed whole at every point (block index 0 on both axes); the two
  adjacency windows are the column halves of stripe t (block indices (t, 0) and (t, 1), extents 512 × 2048); the
  output window is stripe t (block index (t, 0), extents 512 × 256), so row i of the output lies in the block of
  point i / 512, and the eight blocks cover the array.
-/
import proofs.«111126_g2000404061440129_pallasbulk_871_15_alg».proof.Proof.KRuns
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem hN8 : cfg0.N = 8 := N_0

theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 0's block is its whole array, at every point. -/
theorem blk0_read (A : S4096x256.Idx → F .f32) (t : Fin cfg0.N) :
    (((cfg0.win 0).blk t).view.read (Elt F) A : S4096x256.Idx → F .f32) = A := by
  have hi := idx0_0 t
  funext x
  rw [View.read_apply]
  show A _ = A _
  congr 1
  funext a
  apply Fin.ext
  match a with
  | ⟨0, _⟩ => show win0_0.index t 0 * 4096 + 1 * (x 0).val = (x 0).val; rw [hi.1]; omega
  | ⟨1, _⟩ => show win0_0.index t 1 * 256 + 1 * (x 1).val = (x 1).val; rw [hi.2]; omega

theorem iblk0_eq (c : Dev nD) (t : Fin cfg0.N) : (iblk m c 0 t : S4096x256.Idx → F .f32) = V m c main_v0 :=
  blk0_read (V m c main_v0) t

theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block is its whole array, at every point. -/
theorem blk1_read (A : S256x256.Idx → F .f32) (t : Fin cfg0.N) :
    (((cfg0.win 1).blk t).view.read (Elt F) A : S256x256.Idx → F .f32) = A := by
  have hi := idx0_1 t
  funext x
  rw [View.read_apply]
  show A _ = A _
  congr 1
  funext a
  apply Fin.ext
  match a with
  | ⟨0, _⟩ => show win0_1.index t 0 * 256 + 1 * (x 0).val = (x 0).val; rw [hi.1]; omega
  | ⟨1, _⟩ => show win0_1.index t 1 * 256 + 1 * (x 1).val = (x 1).val; rw [hi.2]; omega

theorem iblk1_eq (c : Dev nD) (t : Fin cfg0.N) : (iblk m c 1 t : S256x256.Idx → F .f32) = V m c main_v2 :=
  blk1_read (V m c main_v2) t

theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block is its whole array, at every point. -/
theorem blk4_read (A : S1x256.Idx → F .f32) (t : Fin cfg0.N) :
    (((cfg0.win 4).blk t).view.read (Elt F) A : S1x256.Idx → F .f32) = A := by
  have hi := idx0_4 t
  funext x
  rw [View.read_apply]
  show A _ = A _
  congr 1
  funext a
  apply Fin.ext
  match a with
  | ⟨0, _⟩ => show win0_4.index t 0 * 1 + 1 * (x 0).val = (x 0).val; rw [hi.1]; omega
  | ⟨1, _⟩ => show win0_4.index t 1 * 256 + 1 * (x 1).val = (x 1).val; rw [hi.2]; omega

theorem iblk4_eq (c : Dev nD) (t : Fin cfg0.N) : (iblk m c 4 t : S1x256.Idx → F .f32) = V m c main_v4 :=
  blk4_read (V m c main_v4) t

theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem idx0_3 : ∀ t : Fin cfg0.N, win0_3.index t (0 : Fin 2) = t.val ∧ win0_3.index t (1 : Fin 2) = 1 :=
  (by decide +kernel : ∀ t : Fin grid0.N, win0_3.index t (0 : Fin 2) = t.val ∧ win0_3.index t (1 : Fin 2) = 1)

theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Window 2's block at point t: rows 512 t … 512 t + 511, columns 0 … 2047 of its array. -/
theorem blk2_read_apply (A : S4096x4096.Idx → F .f32) (t : Fin cfg0.N) (r : Fin 512) (k : Fin 2048) :
    (((cfg0.win 2).blk t).view.read (Elt F) A : S512x2048.Idx → F .f32) (ix2 r k)
      = A (ix2 (⟨512 * t.val + r.val, by have := t.isLt; have := hN8; have := r.isLt; omega⟩ : Fin 4096)
            (⟨k.val, by have := k.isLt; omega⟩ : Fin 4096)) := by
  have hi := idx0_2 t
  rw [View.read_apply]
  show A _ = A _
  congr 1
  funext a
  apply Fin.ext
  match a with
  | ⟨0, _⟩ => show win0_2.index t 0 * 512 + 1 * r.val = 512 * t.val + r.val; rw [hi.1]; omega
  | ⟨1, _⟩ => show win0_2.index t 1 * 2048 + 1 * k.val = k.val; rw [hi.2]; omega

theorem iblk2_apply (c : Dev nD) (t : Fin cfg0.N) (r : Fin 512) (k : Fin 2048) :
    (iblk m c 2 t : S512x2048.Idx → F .f32) (ix2 r k)
      = (V m c main_v1 : S4096x4096.Idx → F .f32)
          (ix2 (⟨512 * t.val + r.val, by have := t.isLt; have := hN8; have := r.isLt; omega⟩ : Fin 4096)
            (⟨k.val, by have := k.isLt; omega⟩ : Fin 4096)) :=
  blk2_read_apply (V m c main_v1) t r k

/-- Window 3's block at point t: rows 512 t … 512 t + 511, columns 2048 … 4095 of its array. -/
theorem blk3_read_apply (A : S4096x4096.Idx → F .f32) (t : Fin cfg0.N) (r : Fin 512) (k : Fin 2048) :
    (((cfg0.win 3).blk t).view.read (Elt F) A : S512x2048.Idx → F .f32) (ix2 r k)
      = A (ix2 (⟨512 * t.val + r.val, by have := t.isLt; have := hN8; have := r.isLt; omega⟩ : Fin 4096)
            (⟨2048 + k.val, by have := k.isLt; omega⟩ : Fin 4096)) := by
  have hi := idx0_3 t
  rw [View.read_apply]
  show A _ = A _
  congr 1
  funext a
  apply Fin.ext
  match a with
  | ⟨0, _⟩ => show win0_3.index t 0 * 512 + 1 * r.val = 512 * t.val + r.val; rw [hi.1]; omega
  | ⟨1, _⟩ => show win0_3.index t 1 * 2048 + 1 * k.val = 2048 + k.val; rw [hi.2]; omega

theorem iblk3_apply (c : Dev nD) (t : Fin cfg0.N) (r : Fin 512) (k : Fin 2048) :
    (iblk m c 3 t : S512x2048.Idx → F .f32) (ix2 r k)
      = (V m c main_v1 : S4096x4096.Idx → F .f32)
          (ix2 (⟨512 * t.val + r.val, by have := t.isLt; have := hN8; have := r.isLt; omega⟩ : Fin 4096)
            (⟨2048 + k.val, by have := k.isLt; omega⟩ : Fin 4096)) :=
  blk3_read_apply (V m c main_v1) t r k

/-! ## The output window -/

/-- Where an element of the output block of point t sits in the output array. -/
theorem blk5_emb (t : Fin cfg0.N) (r : Fin 512) (q : Fin 256) :
    (((cfg0.win 5).blk t).view.emb (ix2 r q : S512x256.Idx) : S4096x256.Idx)
      = ix2 (⟨512 * t.val + r.val, by have := t.isLt; have := hN8; have := r.isLt; omega⟩ : Fin 4096) q := by
  have hi := idx0_5 t
  funext a
  apply Fin.ext
  match a with
  | ⟨0, _⟩ => show win0_5.index t 0 * 512 + 1 * r.val = 512 * t.val + r.val; rw [hi.1]; omega
  | ⟨1, _⟩ => show win0_5.index t 1 * 256 + 1 * q.val = q.val; rw [hi.2]; omega

/-- The output block of point t, read off an array: rows 512 t … 512 t + 511 of it. -/
theorem blk5_read_apply (A : S4096x256.Idx → F .f32) (t : Fin cfg0.N) (r : Fin 512) (q : Fin 256) :
    (((cfg0.win 5).blk t).view.read (Elt F) A : S512x256.Idx → F .f32) (ix2 r q)
      = A (ix2 (⟨512 * t.val + r.val, by have := t.isLt; have := hN8; have := r.isLt; omega⟩ : Fin 4096) q) := by
  rw [View.read_apply]
  show A _ = A _
  exact congrArg A (blk5_emb t r q)

/-- An index of the output array lies in the block of point t exactly when its row is in stripe t. -/
theorem mem_blk5 (t : Fin cfg0.N) (i : S4096x256.Idx) :
    i ∈ ((cfg0.win 5).blk t).view.set ↔ (i 0).val / 512 = t.val := by
  have hi := idx0_5 t
  have h1 : (i 1 : Nat) < 256 := (i 1).isLt
  show i ∈ ((View.whole main_v5).slice (win0_5.rect t)).set ↔ _
  rw [View.set_slice_whole, Rect.mem_set_unit]
  constructor
  · intro h
    have h0 : win0_5.index t 0 * 512 ≤ (i 0 : Nat) ∧ (i 0 : Nat) < win0_5.index t 0 * 512 + 512 := h 0
    rw [hi.1] at h0
    omega
  · intro h a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 256 ≤ (i 1 : Nat) ∧ (i 1 : Nat) < win0_5.index t 1 * 256 + 256
      rw [hi.2]; omega

/-- The eight output blocks cover the output array, and every point writes its block back. -/
theorem cover5 (i : S4096x256.Idx) : ∃ t : Fin cfg0.N, (cfg0.win 5).flush t = true ∧ i ∈ ((cfg0.win 5).blk t).view.set :=
  ⟨⟨(i 0).val / 512, by have h : (i 0 : Nat) < 4096 := (i 0).isLt; have := hN8; omega⟩, flush0_5 _, (mem_blk5 _ i).mpr rfl⟩

end Cert.KernelIdeal.Hand

end
-- ==== Proof.KValue.lean ====
/-
  The fused graph-convolution kernel at the ideal instance: what the scratch and the output's staging buffer hold after
  each grid point.

  The features and the weights reach every point whole, so whenever the scratch is filled it is filled with the same
  product payload, and a point that does not fill it finds what the point before left: after EVERY point the scratch
  holds the product payload of the features and the weights as the region found them. Hence after every point the
  output's buffer holds the stripe payload of that point's two adjacency blocks, the top and bottom rows of that
  product, and the bias row.
-/
import proofs.«111126_g2000404061440129_pallasbulk_871_15_alg».proof.Proof.KPieces
import proofs.«111126_g2000404061440129_pallasbulk_871_15_alg».proof.Proof.KBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The product payload of the features and the weights as the region finds them. -/
abbrev suppP (c : Dev nD) : Vec F S4096x256 .bf16 := Gen.k0_pay1 (F := F) (V m c main_v0) (V m c main_v2)

theorem outA_snd (c : Dev nD) (t : Fin cfg0.N) (h : cond0_0 (grid0.coords t)) : (outA m c t h).2 = suppP m c := by
  unfold outA; dsimp only
  rw [sout0_A_0_eq]
  exact congrArg₂ (Gen.k0_pay1 (F := F)) (iblk0_eq m c t) (iblk1_eq m c t)

/-- After every point the scratch holds the product payload. -/
theorem outsAt0_snd (c : Dev nD) : ∀ (n : ℕ) (hn : n < cfg0.N), (outsAt0 m c n hn).2 = suppP m c := by
  intro n
  induction n with
  | zero => intro hn; exact (congrArg Prod.snd (outsAt0_A m c ⟨0, hn⟩ rfl)).trans (outA_snd m c _ _)
  | succ n ih =>
    intro hn
    by_cases h0 : (n + 1) % 4 = 0
    · exact (congrArg Prod.snd (outsAt0_A m c ⟨n + 1, hn⟩ h0)).trans (outA_snd m c _ _)
    · refine (congrArg Prod.snd (outsAt0_B m c ⟨n + 1, hn⟩ h0)).trans ?_
      unfold outB; dsimp only
      exact ih _

/-- After point `t` the output's buffer holds the stripe payload of the point's blocks over the product payload. -/
theorem outsAt0_fst (c : Dev nD) (t : Fin cfg0.N) :
    (outsAt0 m c t.val t.isLt).1
      = Gen.k0_pay2 (F := F) (iblk m c 2 t) (topRows (suppP m c)) (iblk m c 3 t) (botRows (suppP m c)) (iblk m c 4 t) := by
  by_cases h0 : t.val % 4 = 0
  · rw [outsAt0_A m c t h0]
    unfold outA; dsimp only
    rw [out0_A_5_eq]
    have e : Gen.k0_pay1 (F := F) (iblk m c 0 t) (iblk m c 1 t) = suppP m c :=
      congrArg₂ (Gen.k0_pay1 (F := F)) (iblk0_eq m c t) (iblk1_eq m c t)
    rw [e]
  · rw [outsAt0_B m c t h0]
    unfold outB; dsimp only
    rw [out0_B_5_eq, outsAt0_snd]

end Cert.KernelIdeal.Hand

end
-- ==== Proof.Spec.lean ====
/-
  The dense graph-convolution layer as functions of arrays of extended reals, index by index.

  `suppArr x w` is the matrix product x · w (4096 × 256 by 256 × 256): entry (k, c) is the sum over j of x(k, j) · w(j, c).
  `rowSum adj s r c lo n` is the part of row r of adj · s that runs over the n columns lo, lo + 1, …, lo + n − 1 of adj:
  the sum over k < n of adj(r, lo + k) · s(lo + k, c).
  `GK` adds the two halves of a row (columns below 2048, columns from 2048 on) and then the bias;
  `GR` accumulates eight stretches of 512 columns, starting from zero, and then adds the bias.
  Both are adj · s + bias: addition of extended reals is associative and commutative, so the order and grouping
  of the 4096 terms of a row does not matter (`GK_eq_GR`).
-/
import Idealize.ShloMosaic.Lib.ValueIdx
import Idealize.ShloMosaic.PureOps.Ideal.Laws

noncomputable section

namespace Cert.Gcn

open Idealize.ShloMosaic Idealize.ShloMosaic.ValueIdx

abbrev SX : Shape := ⟨2, ![4096, 256]⟩
abbrev SA : Shape := ⟨2, ![4096, 4096]⟩
abbrev SW : Shape := ⟨2, ![256, 256]⟩
abbrev SB : Shape := ⟨1, ![256]⟩

/-- The product x · w, entry by entry. -/
def suppArr (x : SX.Idx → EReal) (w : SW.Idx → EReal) : SX.Idx → EReal := fun i =>
  ∑ j : Fin 256, x (ix2 (⟨(i 0).val, idx2_lt0 i⟩ : Fin 4096) j) * w (ix2 j (⟨(i 1).val, idx2_lt1 i⟩ : Fin 256))

/-- The stretch of row `r` of adj · s over the columns `lo ≤ · < lo + n` of adj. -/
def rowSum (adj : SA.Idx → EReal) (s : SX.Idx → EReal) (r : Fin 4096) (c : Fin 256) (lo n : ℕ) (h : lo + n ≤ 4096) : EReal :=
  ∑ k : Fin n, adj (ix2 r (⟨lo + k.val, by have := k.isLt; omega⟩ : Fin 4096)) * s (ix2 (⟨lo + k.val, by have := k.isLt; omega⟩ : Fin 4096) c)

/-- The two column halves of a row added, then the bias. -/
def GK (adj : SA.Idx → EReal) (s : SX.Idx → EReal) (b : SB.Idx → EReal) : SX.Idx → EReal := fun i =>
  (rowSum adj s ⟨(i 0).val, idx2_lt0 i⟩ ⟨(i 1).val, idx2_lt1 i⟩ 0 2048 (by omega)
    + rowSum adj s ⟨(i 0).val, idx2_lt0 i⟩ ⟨(i 1).val, idx2_lt1 i⟩ 2048 2048 (by omega))
  + b (ix1 (⟨(i 1).val, idx2_lt1 i⟩ : Fin 256))

/-- The accumulator after `n` stretches of 512 columns, from zero. -/
def accR (adj : SA.Idx → EReal) (s : SX.Idx → EReal) (r : Fin 4096) (c : Fin 256) : (n : ℕ) → n ≤ 8 → EReal
  | 0, _ => 0
  | n + 1, h => accR adj s r c n (by omega) + rowSum adj s r c (512 * n) 512 (by omega)

/-- Eight stretches accumulated, then the bias. -/
def GR (adj : SA.Idx → EReal) (s : SX.Idx → EReal) (b : SB.Idx → EReal) : SX.Idx → EReal := fun i =>
  accR adj s ⟨(i 0).val, idx2_lt0 i⟩ ⟨(i 1).val, idx2_lt1 i⟩ 8 (le_refl _) + b (ix1 (⟨(i 1).val, idx2_lt1 i⟩ : Fin 256))

end Cert.Gcn

end
-- ==== Proof.HostOps.lean ====
/-
  Three host-side operations read as plain functions.

  * A pad whose low and interior paddings are zero on every axis and whose result has the operand's own shape
    changes nothing: every index of the result lies inside the operand and reads the operand there.
  * A vector of `n` entries reshaped to one row of `n` entries reads, at `(0, c)`, the vector at `c`.
  * One row broadcast over `R` rows reads, at `(r, c)`, the row at `c`.
-/
import Idealize.ShloMosaic.Lib.ValueIdx
import Idealize.ShloMosaic.Lib.Pipeline.Value
import Idealize.ShloMosaic.Lib.ValueLayout

namespace Cert.Gcn.HostOps

open Idealize.ShloMosaic Idealize.ShloMosaic.ValueIdx

variable {α : Type}

/-- A pad with no low and no interior padding, onto the operand's own shape, is the identity. -/
theorem pad_zero_eq {s : Shape} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a, Nat.sub_zero, Nat.zero_add, Nat.mod_one, Nat.div_one]
    exact ⟨Nat.zero_le _, rfl, (j (a.cast h.1)).isLt⟩
  rw [dif_pos hin]
  exact congrArg x (funext fun a => Fin.ext (by
    show ((j (a.cast h.1)).val - lo a) / (interior a + 1) = (j a).val
    rw [hlo a, hint a, Nat.sub_zero, Nat.zero_add, Nat.div_one]
    rfl))

theorem zeros2 : ∀ a : Fin 2, (![0, 0] : Fin 2 → Nat) a = 0 := by decide

theorem zeros1 : ∀ a : Fin 1, (![0] : Fin 1 → Nat) a = 0 := by decide

/-- The 4096 × 256 instance. -/
theorem pad_4096x256 (x : (⟨2, ![4096, 256]⟩ : Shape).Idx → α) {u : Shape} (v : u.Idx → α)
    (hp : (⟨2, ![4096, 256]⟩ : Shape).Pads (![0, 0] : Fin 2 → Nat) ![0, 0] ![0, 0] ⟨2, ![4096, 256]⟩) (hs : 0 < u.numel) :
    pad ⟨2, ![4096, 256]⟩ ![0, 0] ![0, 0] ![0, 0] x v hp hs = x :=
  pad_zero_eq _ _ _ x v hp hs zeros2 zeros2

/-- The 4096 × 4096 instance. -/
theorem pad_4096x4096 (x : (⟨2, ![4096, 4096]⟩ : Shape).Idx → α) {u : Shape} (v : u.Idx → α)
    (hp : (⟨2, ![4096, 4096]⟩ : Shape).Pads (![0, 0] : Fin 2 → Nat) ![0, 0] ![0, 0] ⟨2, ![4096, 4096]⟩) (hs : 0 < u.numel) :
    pad ⟨2, ![4096, 4096]⟩ ![0, 0] ![0, 0] ![0, 0] x v hp hs = x :=
  pad_zero_eq _ _ _ x v hp hs zeros2 zeros2

/-- The 256 × 256 instance. -/
theorem pad_256x256 (x : (⟨2, ![256, 256]⟩ : Shape).Idx → α) {u : Shape} (v : u.Idx → α)
    (hp : (⟨2, ![256, 256]⟩ : Shape).Pads (![0, 0] : Fin 2 → Nat) ![0, 0] ![0, 0] ⟨2, ![256, 256]⟩) (hs : 0 < u.numel) :
    pad ⟨2, ![256, 256]⟩ ![0, 0] ![0, 0] ![0, 0] x v hp hs = x :=
  pad_zero_eq _ _ _ x v hp hs zeros2 zeros2

/-- The instance for a vector of 256 entries. -/
theorem pad_256 (x : (⟨1, ![256]⟩ : Shape).Idx → α) {u : Shape} (v : u.Idx → α)
    (hp : (⟨1, ![256]⟩ : Shape).Pads (![0] : Fin 1 → Nat) ![0] ![0] ⟨1, ![256]⟩) (hs : 0 < u.numel) :
    pad ⟨1, ![256]⟩ ![0] ![0] ![0] x v hp hs = x :=
  pad_zero_eq _ _ _ x v hp hs zeros1 zeros1

/-- 256 entries reshaped to one row of 256: entry `(0, c)` is entry `c`. -/
theorem reshape_256_1x256_apply (b : (⟨1, ![256]⟩ : Shape).Idx → α)
    (h : (⟨1, ![256]⟩ : Shape).ShapeCasts ⟨2, ![1, 256]⟩) (c : Fin 256) :
    shapeCast ⟨2, ![1, 256]⟩ b h (ix2 (0 : Fin 1) c) = b (ix1 c) :=
  shapeCast_a_1a_apply b h 0 c

/-- One row of 256 broadcast over 512 rows: entry `(r, c)` is the row's entry `c`. -/
theorem broadcast_1x256_512x256_apply (v : (⟨2, ![1, 256]⟩ : Shape).Idx → α)
    (h : (⟨2, ![1, 256]⟩ : Shape).Broadcasts ⟨2, ![512, 256]⟩) (r : Fin 512) (c : Fin 256) :
    broadcastTo ⟨2, ![512, 256]⟩ v h (ix2 r c) = v (ix2 (0 : Fin 1) c) :=
  broadcastTo_1b_ab_apply v h r c

/-- One row of 256 broadcast over 256 rows: entry `(r, c)` is the row's entry `c`. -/
theorem broadcast_1x256_256x256_apply (v : (⟨2, ![1, 256]⟩ : Shape).Idx → α)
    (h : (⟨2, ![1, 256]⟩ : Shape).Broadcasts ⟨2, ![256, 256]⟩) (r : Fin 256) (c : Fin 256) :
    broadcastTo ⟨2, ![256, 256]⟩ v h (ix2 r c) = v (ix2 (0 : Fin 1) c) :=
  broadcastTo_1b_ab_apply v h r c

end Cert.Gcn.HostOps
-- ==== Proof.MatmulAt.lean ====
/-
  A matrix product into a zero accumulator, read at an entry.

  For an m × k matrix A and a k × n matrix B (the second axis of A contracted with the first axis of B, no batch
  axis), the product accumulated into the zero matrix has, at (a, b), the sum over c < k of A(a, c) · B(c, b):
  the contraction index has one coordinate, and at contraction position c the operands are read at (a, c) and (c, b).
-/
import Idealize.ShloMosaic.Lib.ValueIdx
import Idealize.ShloMosaic.PureOps.Ideal.Laws

noncomputable section

namespace Cert.Gcn.MatmulAt

open Idealize.ShloMosaic Idealize.ShloMosaic.ValueIdx

/-- The left operand of the plain product is read at (a, c), the right one at (c, b). -/
theorem plain_idx {m k n : Nat}
    (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The plain product into the zero matrix, at an entry. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [(plain_idx w a b c).1, (plain_idx w a b c).2]

end Cert.Gcn.MatmulAt

end
-- ==== Proof.KPay.lean ====
/-
  The kernel's two stored values, entry by entry, over extended reals.

  The first is the product x · w: the narrowing and widening conversions and the reshapes onto the same shape change
  nothing, and the matrix product into a zero accumulator is a finite sum. The second adds, for each of the two column
  halves of a stripe of adj, the product of that half with the matching rows of the stored product, and then the bias
  row laid along every row.
-/
import proofs.«111126_g2000404061440129_pallasbulk_871_15_alg».proof.Proof.Spec
import proofs.«111126_g2000404061440129_pallasbulk_871_15_alg».proof.Proof.HostOps
import proofs.«111126_g2000404061440129_pallasbulk_871_15_alg».proof.Proof.MatmulAt
import proofs.«111126_g2000404061440129_pallasbulk_871_15_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

variable [Facts]

/-- The first stored value at (k, c): the sum over j of x(k, j) · w(j, c). -/
theorem pay1_apply (x : Vec Ideal S4096x256 .f32) (w : Vec Ideal S256x256 .f32) (k : Fin 4096) (c : Fin 256) :
    Gen.k0_pay1 (F := Ideal) x w (ix2 k c) = ∑ j : Fin 256, x (ix2 k j) * w (ix2 j c) := by
  have e : matmul (F := Ideal) (φ₁ := .bf16) (φ₂ := .bf16) dot_S4096x256_S256x256_S4096x256_1_0_0_1_n_n none
        (truncf .bf16 x Facts₀.bitsLt_bf16_f32) (truncf .bf16 w Facts₀.bitsLt_bf16_f32)
        (constant (F := Ideal) S4096x256 .f32 0x00000000#32) (ix2 k c)
      = ∑ j : Fin 256, x (ix2 k j) * w (ix2 j c) :=
    Cert.Gcn.MatmulAt.matmul_zero_ix2 (φ₁ := .bf16) (φ₂ := .bf16) Facts₀.dot_S4096x256_S256x256_S4096x256_1_0_0_1_n_n_wf none
      (truncf .bf16 x Facts₀.bitsLt_bf16_f32) (truncf .bf16 w Facts₀.bitsLt_bf16_f32) k c
  unfold Gen.k0_pay1
  simp only [shapeCast_self, truncf_apply]
  exact e

/-- The first stored value is the product x · w. -/
theorem pay1_eq (x : Vec Ideal S4096x256 .f32) (w : Vec Ideal S256x256 .f32) :
    Gen.k0_pay1 (F := Ideal) x w = Cert.Gcn.suppArr x w := by
  funext i
  rw [eq_ix2 i]
  exact pay1_apply x w (i 0) (i 1)

/-- The second stored value at (r, c): the two halves' sums, then the bias. -/
theorem pay2_apply (a0 : Vec Ideal S512x2048 .f32) (s0 : Vec Ideal S2048x256 .bf16) (a1 : Vec Ideal S512x2048 .f32)
    (s1 : Vec Ideal S2048x256 .bf16) (bias : Vec Ideal S1x256 .f32) (r : Fin 512) (c : Fin 256) :
    Gen.k0_pay2 (F := Ideal) a0 s0 a1 s1 bias (ix2 r c)
      = ((∑ k : Fin 2048, a0 (ix2 r k) * s0 (ix2 k c)) + (∑ k : Fin 2048, a1 (ix2 r k) * s1 (ix2 k c)))
        + bias (ix2 (0 : Fin 1) c) := by
  have e0 : matmul (F := Ideal) (φ₁ := .bf16) (φ₂ := .bf16) dot_S512x2048_S2048x256_S512x256_1_0_0_1_n_n none
        (truncf .bf16 a0 Facts₀.bitsLt_bf16_f32) s0 (constant (F := Ideal) S512x256 .f32 0x00000000#32) (ix2 r c)
      = ∑ k : Fin 2048, a0 (ix2 r k) * s0 (ix2 k c) :=
    Cert.Gcn.MatmulAt.matmul_zero_ix2 (φ₁ := .bf16) (φ₂ := .bf16) Facts₀.dot_S512x2048_S2048x256_S512x256_1_0_0_1_n_n_wf none
      (truncf .bf16 a0 Facts₀.bitsLt_bf16_f32) s0 r c
  have e1 : matmul (F := Ideal) (φ₁ := .bf16) (φ₂ := .bf16) dot_S512x2048_S2048x256_S512x256_1_0_0_1_n_n none
        (truncf .bf16 a1 Facts₀.bitsLt_bf16_f32) s1 (constant (F := Ideal) S512x256 .f32 0x00000000#32) (ix2 r c)
      = ∑ k : Fin 2048, a1 (ix2 r k) * s1 (ix2 k c) :=
    Cert.Gcn.MatmulAt.matmul_zero_ix2 (φ₁ := .bf16) (φ₂ := .bf16) Facts₀.dot_S512x2048_S2048x256_S512x256_1_0_0_1_n_n_wf none
      (truncf .bf16 a1 Facts₀.bitsLt_bf16_f32) s1 r c
  unfold Gen.k0_pay2
  simp only [shapeCast_self, addf_apply]
  rw [e0, e1, Cert.Gcn.HostOps.broadcast_1x256_512x256_apply]

end Cert.KernelIdeal.Pay

end
-- ==== Proof.KPayLaw.lean ====
/-
  The kernel's second stored value is a stripe of the kernel-shaped function.

  At grid point t the body holds rows 512 t … 512 t + 511 of the adjacency as two column halves, the stored product
  s as its rows 0 … 2047 and 2048 … 4095, and the bias row. Entry (r, c) of what it stores is then the two halves of
  row 512 t + r of adj · s added, plus the bias at c: entry (512 t + r, c) of `GK adj s b`.
-/
import proofs.«111126_g2000404061440129_pallasbulk_871_15_alg».proof.Proof.Spec
import proofs.«111126_g2000404061440129_pallasbulk_871_15_alg».proof.Proof.KPay

noncomputable section

namespace Cert.KernelIdeal.Pay

open Cert.KernelIdeal Cert.KernelIdeal.Gen Idealize.ShloMosaic Idealize.ShloMosaic.ValueIdx
open Cert.Gcn (SA SX SB GK rowSum)

variable [Facts]

/-- The second stored value at (r, c), from what the blocks are: entry (512 t + r, c) of `GK adj s b`. -/
theorem pay2_eq_GK (adj : SA.Idx → EReal) (s : SX.Idx → EReal) (b : SB.Idx → EReal) (t : ℕ) (ht : t < 8)
    (a0 : Vec Ideal S512x2048 .f32) (s0 : Vec Ideal S2048x256 .bf16) (a1 : Vec Ideal S512x2048 .f32)
    (s1 : Vec Ideal S2048x256 .bf16) (bias : Vec Ideal S1x256 .f32)
    (ha0 : ∀ (r : Fin 512) (k : Fin 2048), a0 (ix2 r k)
      = adj (ix2 (⟨512 * t + r.val, by have := r.isLt; omega⟩ : Fin 4096) (⟨k.val, by have := k.isLt; omega⟩ : Fin 4096)))
    (ha1 : ∀ (r : Fin 512) (k : Fin 2048), a1 (ix2 r k)
      = adj (ix2 (⟨512 * t + r.val, by have := r.isLt; omega⟩ : Fin 4096) (⟨2048 + k.val, by have := k.isLt; omega⟩ : Fin 4096)))
    (hs0 : ∀ (k : Fin 2048) (c : Fin 256), s0 (ix2 k c) = s (ix2 (⟨k.val, by have := k.isLt; omega⟩ : Fin 4096) c))
    (hs1 : ∀ (k : Fin 2048) (c : Fin 256), s1 (ix2 k c) = s (ix2 (⟨2048 + k.val, by have := k.isLt; omega⟩ : Fin 4096) c))
    (hb : ∀ c : Fin 256, bias (ix2 (0 : Fin 1) c) = b (ix1 c)) (r : Fin 512) (c : Fin 256) :
    Gen.k0_pay2 (F := Ideal) a0 s0 a1 s1 bias (ix2 r c)
      = GK adj s b (ix2 (⟨512 * t + r.val, by have := r.isLt; omega⟩ : Fin 4096) c) := by
  rw [pay2_apply]
  unfold GK rowSum
  refine congrArg₂ (· + ·) (congrArg₂ (· + ·) (Finset.sum_congr rfl fun k _ => ?_) (Finset.sum_congr rfl fun k _ => ?_)) (hb c)
  · rw [ha0 r k, hs0 k c]
    simp only [Nat.zero_add]
  · rw [ha1 r k, hs1 k c]

end Cert.KernelIdeal.Pay

end
-- ==== Proof.KStripe.lean ====
/-
  The kernel's stored stripe is a stripe of the specification.

  The two row halves of a 4096 × 256 array, read at an index: entry (k, q) of the top half is entry (k, q) of the
  array, entry (k, q) of the bottom half is entry (2048 + k, q). With the stored product x · w in the scratch, the
  value the body stores at grid point t is, at (r, q), entry (512 t + r, q) of the kernel-shaped function of the
  adjacency, the product and the bias row.
-/
import proofs.«111126_g2000404061440129_pallasbulk_871_15_alg».proof.Proof.KPieces
import proofs.«111126_g2000404061440129_pallasbulk_871_15_alg».proof.Proof.Spec
import proofs.«111126_g2000404061440129_pallasbulk_871_15_alg».proof.Proof.KPay
import proofs.«111126_g2000404061440129_pallasbulk_871_15_alg».proof.Proof.KPayLaw
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- The top row half at (k, q) is the array at (k, q). -/
theorem topRows_apply (P : Vec F S4096x256 .bf16) (k : Fin 2048) (q : Fin 256) :
    topRows P (ix2 k q) = P (ix2 (⟨k.val, by have := k.isLt; omega⟩ : Fin 4096) q) := by
  show P (rTop.idx (ix2 k q)) = _
  congr 1
  funext a
  apply Fin.ext
  match a with
  | ⟨0, _⟩ => show 0 + 1 * k.val = k.val; omega
  | ⟨1, _⟩ => show 0 + 1 * q.val = q.val; omega

/-- The bottom row half at (k, q) is the array at (2048 + k, q). -/
theorem botRows_apply (P : Vec F S4096x256 .bf16) (k : Fin 2048) (q : Fin 256) :
    botRows P (ix2 k q) = P (ix2 (⟨2048 + k.val, by have := k.isLt; omega⟩ : Fin 4096) q) := by
  show P (rBot.idx (ix2 k q)) = _
  congr 1
  funext a
  apply Fin.ext
  match a with
  | ⟨0, _⟩ => show 2048 + 1 * k.val = 2048 + k.val; omega
  | ⟨1, _⟩ => show 0 + 1 * q.val = q.val; omega

/-- The stripe stored at grid point t, at (r, q): entry (512 t + r, q) of the kernel-shaped function. -/
theorem stripe_eq (adjA : Vec Ideal S4096x4096 .f32) (x : Vec Ideal S4096x256 .f32) (w : Vec Ideal S256x256 .f32)
    (bias : Vec Ideal S1x256 .f32) (a0 a1 : Vec Ideal S512x2048 .f32) (t : ℕ) (ht : t < 8)
    (h0 : ∀ (r : Fin 512) (k : Fin 2048), a0 (ix2 r k)
      = adjA (ix2 (⟨512 * t + r.val, by have := r.isLt; omega⟩ : Fin 4096) (⟨k.val, by have := k.isLt; omega⟩ : Fin 4096)))
    (h1 : ∀ (r : Fin 512) (k : Fin 2048), a1 (ix2 r k)
      = adjA (ix2 (⟨512 * t + r.val, by have := r.isLt; omega⟩ : Fin 4096) (⟨2048 + k.val, by have := k.isLt; omega⟩ : Fin 4096)))
    (r : Fin 512) (q : Fin 256) :
    Gen.k0_pay2 (F := Ideal) a0 (topRows (Gen.k0_pay1 (F := Ideal) x w)) a1 (botRows (Gen.k0_pay1 (F := Ideal) x w)) bias (ix2 r q)
      = Cert.Gcn.GK adjA (Cert.Gcn.suppArr x w)
          (fun i => bias (ix2 (0 : Fin 1) (⟨(i 0).val, by have := (i 0).isLt; simpa using this⟩ : Fin 256)))
          (ix2 (⟨512 * t + r.val, by have := r.isLt; omega⟩ : Fin 4096) q) := by
  have hP := Pay.pay1_eq x w
  refine Pay.pay2_eq_GK adjA (Cert.Gcn.suppArr x w) _ t ht a0 _ a1 _ bias h0 h1 (fun k c => ?_) (fun k c => ?_) (fun c => ?_) r q
  · rw [topRows_apply, hP]
  · rw [botRows_apply, hP]
  · rfl

end Cert.KernelIdeal.Hand

end
-- ==== Proof.KHost.lean ====
/-
  What the host operations before the region leave in the windows' arrays.

  Each of the three matrix arguments is padded with zero padding on every side, which changes nothing: the padded
  array is the argument. The bias vector is padded the same way and then reshaped to one row: entry (0, q) of the
  row is entry q of the argument.
-/
import proofs.«111126_g2000404061440129_pallasbulk_871_15_alg».proof.Proof.KRuns
import proofs.«111126_g2000404061440129_pallasbulk_871_15_alg».proof.Proof.HostOps

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The node features as the region finds them: the first argument. -/
theorem V_main_v0 (c : Dev nD) : V m c main_v0 = m ((c : Thread nD τ).loc main_arg0) := by
  dsimp only [V, hostStretches]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  show pad S4096x256 ![0, 0] ![0, 0] ![0, 0] (m ((c : Thread nD τ).loc main_arg0) : S4096x256.Idx → F .f32) (u := S_) _
    pads_S4096x256_S4096x256_000_000 h_S_ = _
  exact Cert.Gcn.HostOps.pad_4096x256 _ _ _ _

/-- The adjacency as the region finds it: the second argument. -/
theorem V_main_v1 (c : Dev nD) : V m c main_v1 = m ((c : Thread nD τ).loc main_arg1) := by
  dsimp only [V, hostStretches]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  show pad S4096x4096 ![0, 0] ![0, 0] ![0, 0] (m ((c : Thread nD τ).loc main_arg1) : S4096x4096.Idx → F .f32) (u := S_) _
    pads_S4096x4096_S4096x4096_000_000 h_S_ = _
  exact Cert.Gcn.HostOps.pad_4096x4096 _ _ _ _

/-- The weights as the region finds them: the third argument. -/
theorem V_main_v2 (c : Dev nD) : V m c main_v2 = m ((c : Thread nD τ).loc main_arg2) := by
  dsimp only [V, hostStretches]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  show pad S256x256 ![0, 0] ![0, 0] ![0, 0] (m ((c : Thread nD τ).loc main_arg2) : S256x256.Idx → F .f32) (u := S_) _
    pads_S256x256_S256x256_000_000 h_S_ = _
  exact Cert.Gcn.HostOps.pad_256x256 _ _ _ _

/-- The bias row as the region finds it: entry (0, q) is entry q of the fourth argument. -/
theorem V_main_v4_apply (c : Dev nD) (q : Fin 256) :
    (V m c main_v4 : S1x256.Idx → F .f32) (ix2 (0 : Fin 1) q)
      = (m ((c : Thread nD τ).loc main_arg3) : S256.Idx → F .f32) (ix1 q) := by
  dsimp only [V, hostStretches]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  show shapeCast S1x256 (pad S256 ![0] ![0] ![0] (m ((c : Thread nD τ).loc main_arg3) : S256.Idx → F .f32) (u := S_) _
    pads_S256_S256_000 h_S_) shapeCasts_S256_S1x256 (ix2 (0 : Fin 1) q) = _
  rw [Cert.Gcn.HostOps.pad_256]
  exact Cert.Gcn.HostOps.reshape_256_1x256_apply _ _ q

end Cert.KernelIdeal.Hand

end
-- ==== Proof.KRun.lean ====
/-
  The fused graph-convolution kernel: the run of @main.

  The adjacency's buffer, held whole when the region is entered, is divided between the two windows that read it (the
  left and the right half of its full share); every other array goes to its one window whole. With the body
  obligation and the tracking invariant this gives the run: every weakly fair execution terminates without a fault,
  the result array ends at what the eight write-backs make of it, and no other unscoped buffer changes — in
  particular the four arguments.
-/
import proofs.«111126_g2000404061440129_pallasbulk_871_15_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, make the proof data's arrays at entry: the
    adjacency's share is halved between windows 2 and 3. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have e : (bigSep (Finset.univ.image (Pipeline.arrRef spec0)) fun b => (((c : Thread nD τ).loc b) ↦{fullShare} V m c b : sProp 𝕄))
      = iprop((((c : Thread nD τ).loc main_v0) ↦{fullShare} V m c main_v0) ∗ (((c : Thread nD τ).loc main_v2) ↦{fullShare} V m c main_v2)
          ∗ (((c : Thread nD τ).loc main_v1) ↦{fullShare} V m c main_v1) ∗ (((c : Thread nD τ).loc main_v4) ↦{fullShare} V m c main_v4)
          ∗ (((c : Thread nD τ).loc main_v5) ↦{fullShare} V m c main_v5)) :=
    bigSep_eq_bigSepL_of_eq [main_v0, main_v2, main_v1, main_v4, main_v5] (by decide) (by decide) _
  rw [bigSep_W0, e]
  rw [(arr_whole0 0).set_eq_univ, (arr_whole0 1).set_eq_univ, (arr_whole0 2).set_eq_univ, (arr_whole0 4).set_eq_univ, (arr_whole0 5).set_eq_univ]
  iintro ⟨H0, H2, H1, H4, H5⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  isplitl [H4]; · iexact H4
  iexact H5

-- the launch theorem's implicit arguments are found by unifying its conclusion with this one
set_option backward.isDefEq.respectTransparency.types false in
/-- The run: every window's array ends at `Dat.arrAt w N`, every other unscoped buffer as the region found it. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- info: 'Cert.KernelIdeal.Hand.run_main' depends on axioms: [propext, Classical.choice, Quot.sound] -/
#guard_msgs in #print axioms run_main

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.KernelIdeal.Hand

end
-- ==== Proof.KFinal.lean ====
/-
  The fused graph-convolution kernel at the ideal instance: the result array.

  Point t writes back stripe t of the output, and what it writes is, entry by entry, row 512·t + r of
  adjacency · (features · weights) + bias with the row's 4096 terms added as two halves. The eight stripes cover the
  array, so the result array ends holding that function of the arrays the region found, which the host operations
  before it (paddings by nothing, a reshape of the bias to a row) make the four arguments themselves.
-/
import proofs.«111126_g2000404061440129_pallasbulk_871_15_alg».proof.Proof.KValue
import proofs.«111126_g2000404061440129_pallasbulk_871_15_alg».proof.Proof.KStripe
import proofs.«111126_g2000404061440129_pallasbulk_871_15_alg».proof.Proof.KHost
import proofs.«111126_g2000404061440129_pallasbulk_871_15_alg».proof.Proof.KRun
import proofs.«111126_g2000404061440129_pallasbulk_871_15_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The bias row the region finds, as a vector. -/
abbrev biasVec (c : Dev nD) : Cert.Gcn.SB.Idx → EReal :=
  fun i => (V m c main_v4 : S1x256.Idx → EReal) (ix2 (0 : Fin 1) (⟨(i 0).val, by have := (i 0).isLt; simpa using this⟩ : Fin 256))

/-- The result as a function of the arrays the region finds. -/
abbrev resultV (c : Dev nD) : S4096x256.Idx → EReal :=
  Cert.Gcn.GK (V m c main_v1) (Cert.Gcn.suppArr (V m c main_v0) (V m c main_v2)) (biasVec m c)

/-- The stripe payload at an entry of its block is the layer's result at the entry of the array the block's
    rectangle sends it to: over variables, the array index given by its two coordinates. -/
theorem stripe_at (adjA : Vec Ideal S4096x4096 .f32) (x : Vec Ideal S4096x256 .f32) (w : Vec Ideal S256x256 .f32) (bias : Vec Ideal S1x256 .f32)
    (a0 a1 : Vec Ideal S512x2048 .f32) (t : ℕ) (ht : t < 8)
    (h0 : ∀ (r : Fin 512) (k : Fin 2048), a0 (ix2 r k) = adjA (ix2 (⟨512 * t + r.val, by omega⟩ : Fin 4096) (⟨k.val, by omega⟩ : Fin 4096)))
    (h1 : ∀ (r : Fin 512) (k : Fin 2048), a1 (ix2 r k) = adjA (ix2 (⟨512 * t + r.val, by omega⟩ : Fin 4096) (⟨2048 + k.val, by omega⟩ : Fin 4096)))
    (y : S512x256.Idx) (i : S4096x256.Idx) (hi0 : (i 0).val = 512 * t + (y 0).val) (hi1 : (i 1).val = (y 1).val) :
    Gen.k0_pay2 (F := Ideal) a0 (topRows (Gen.k0_pay1 (F := Ideal) x w)) a1 (botRows (Gen.k0_pay1 (F := Ideal) x w)) bias y
      = Cert.Gcn.GK adjA (Cert.Gcn.suppArr x w) (fun i => bias (ix2 (0 : Fin 1) (⟨(i 0).val, by have := (i 0).isLt; simpa using this⟩ : Fin 256))) i := by
  obtain ⟨r, q, rfl⟩ : ∃ (r : Fin 512) (q : Fin 256), y = ix2 r q := ⟨y 0, y 1, eq_ix2 y⟩
  have hb : 512 * t + r.val < 4096 := by have := r.isLt; clear hi0 hi1; omega
  have hi : i = ix2 (⟨512 * t + r.val, hb⟩ : Fin 4096) q := by
    funext a
    match a with
    | ⟨0, _⟩ => exact Fin.ext hi0
    | ⟨1, _⟩ => exact Fin.ext hi1
  rw [hi]
  exact stripe_eq adjA x w bias a0 a1 t ht h0 h1 r q

/-- What point `t` writes back is the block of `resultV` its rectangle names. -/
theorem flushed_eq (c : Dev nD) (t : Fin cfg0.N) :
    (dats m 0 c).flushed 5 t = ((cfg0.win 5).blk t).view.read (Elt Ideal) (resultV m c) := by
  have ht : t.val < 8 := lt_of_lt_of_eq t.isLt hN8
  obtain ⟨e0, e1⟩ := idx0_5 t
  show (cfg0.win 5).cut (grid0.coords t) ((dats m 0 c).after 5 t) = _
  rw [after0_5, outsAt0_fst, iblk4_eq]
  funext y
  have p0 : ((((cfg0.win 5).blk t).view.emb y) 0).val = win0_5.index t 0 * 512 + 1 * (y 0).val := rfl
  have p1 : ((((cfg0.win 5).blk t).view.emb y) 1).val = win0_5.index t 1 * 256 + 1 * (y 1).val := rfl
  refine stripe_at (V m c main_v1) (V m c main_v0) (V m c main_v2) (V m c main_v4) (iblk m c 2 t) (iblk m c 3 t) t.val ht
    (fun r k => iblk2_apply m c t r k) (fun r k => iblk3_apply m c t r k) y (((cfg0.win 5).blk t).view.emb y) ?_ ?_
  · rw [p0, e0]; omega
  · rw [p1, e1]; omega

/-- The result array ends holding `resultV`. -/
theorem final5 (c : Dev nD) : (dats m 0 c).arrAt 5 cfg0.N = resultV m c :=
  (dats m 0 c).arrAt_eq_of_cover 5 (resultV m c) (fun t _ => flushed_eq m c t) (fun i => cover5 i)

theorem biasVec_eq (c : Dev nD) : biasVec m c = m ((c : Thread nD τ).loc main_arg3) := by
  funext i
  show (V m c main_v4 : S1x256.Idx → EReal) (ix2 (0 : Fin 1) _) = _
  rw [V_main_v4_apply]
  exact congrArg _ (eq_ix1 i).symm

/-- The result as a function of the four arguments. -/
theorem resultV_eq (c : Dev nD) :
    resultV m c = Cert.Gcn.GK (m ((c : Thread nD τ).loc main_arg1))
      (Cert.Gcn.suppArr (m ((c : Thread nD τ).loc main_arg0)) (m ((c : Thread nD τ).loc main_arg2))) (m ((c : Thread nD τ).loc main_arg3)) := by
  unfold resultV
  rw [biasVec_eq, V_main_v0, V_main_v1, V_main_v2]

/-- The run, read: the result array at `GK` of the arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v5) = Cert.Gcn.GK (m ((c.tc : Thread nD τ).loc main_arg1))
        (Cert.Gcn.suppArr (m ((c.tc : Thread nD τ).loc main_arg0)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).1 5).trans (final5 m c)).trans (resultV_eq m c),
     ((h c).2 main_arg0 (Pipeline.mem_restRefs_of main_arg0 rfl (by decide))).trans (V_main_arg0 m c),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.KernelIdeal.Hand

end
-- ==== Proof.RRuns0.lean ====
import proofs.«111126_g2000404061440129_pallasbulk_871_15_alg».proof.Proof.Gen.ReferenceIdeal.Launch
import proofs.«111126_g2000404061440129_pallasbulk_871_15_alg».proof.Proof.Gen.ReferenceIdeal.Skeleton
import proofs.«111126_g2000404061440129_pallasbulk_871_15_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # The first region's body: x-block times w, one store -/

/-- The whole 256 × 256 block as a rectangle. -/
abbrev r0 : Rect S256x256 := Rect.unit (s := S256x256) ![0, 0] S256x256.size inb_S256x256_S256x256_0_0

/-- What the body leaves in its output block: the one store's payload, the product of the two input blocks. -/
def out0_2 (x0 : Vec F S256x256 .f32) (x1 : Vec F S256x256 .f32) : Vec F S256x256 .f32 :=
  View.canon [⟨r0, k0_pay1 (View.ld x0 r0) (View.ld x1 r0)⟩]

/-- The one store covers the block. -/
theorem cover0_2 (p0 : Vec F S256x256 .f32) (y : S256x256.Idx) :
    ∃ pc ∈ ([⟨r0, p0⟩] : List (View.Piece (Elt F) S256x256 .f32)), y ∈ pc.1.set :=
  View.cover_of_tiled [⟨r0, p0⟩] S256x256.size (by rfl) y

set_option maxHeartbeats 1000000 in
/-- The body on whole buffers, the inputs at contents `x0`, `x1` and the output at anything, runs to the
    continuation holding the inputs as they were and the output at `out0_2 x0 x1`. -/
theorem sound_kernel0 (c : Dev nD) (E : Set ℕ) (i : grid0.Coords)
    (arg1 : Memref sig .tc .vmem S256x256 .f32) (harg1 : arg1.IsWhole) (arg2 : Memref sig .tc .vmem S256x256 .f32) (harg2 : arg2.IsWhole)
    (arg3 : Memref sig .tc .vmem S256x256 .f32) (harg3 : arg3.IsWhole)
    (x0 : Vec F S256x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.ReferenceIdeal.Hand

end
-- ==== Proof.RData0.lean ====
import proofs.«111126_g2000404061440129_pallasbulk_871_15_alg».proof.Proof.RRuns0

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region (support = x · w by 256-row tiles) as proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0 holds its block at every point, fetched there or not, for any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0 holds its block at every point, fetched there or not, for any proof data whose array
    is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input's buffer at its block and the
    output's at the product of the two input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RRuns1.lean ====
import proofs.«111126_g2000404061440129_pallasbulk_871_15_alg».proof.Proof.Gen.ReferenceIdeal.Launch
import proofs.«111126_g2000404061440129_pallasbulk_871_15_alg».proof.Proof.Gen.ReferenceIdeal.Skeleton
import proofs.«111126_g2000404061440129_pallasbulk_871_15_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # The second region's body: what its three control cases are stated over -/

/-- The body zeroes the accumulator: the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body stores the output block: the second grid coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output block is not stored the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is stored the window is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S256x256 .f32 := (Memref.whole cc1_stg3_0 : Memref sig .tc .vmem S256x256 .f32).view
/-- Each window's current staging memref at point `t`, and its wholeness. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
/-- The accumulator: a whole scoped buffer of the kernel's own, carried between points. -/
abbrev scM1_0 : Memref sig .tc .vmem S256x256 .f32 := Memref.whole cc1_scratch0
abbrev VS1_0 : View sig .tc .vmem S256x256 .f32 := scM1_0.view

/-- The class's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.ReferenceIdeal.Hand

end
-- ==== Proof.RRuns1A.lean ====
import proofs.«111126_g2000404061440129_pallasbulk_871_15_alg».proof.Proof.RRuns1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- THE FIRST STEP OF A ROW STRIPE (second grid coordinate 0): the accumulator, at anything, is zeroed and then
    has the product of the two blocks added; the output block is not touched. The pieces the accumulator ends with
    are the witness the run finds. -/
noncomputable def kernelRun1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_spmm_kernel i arg2 harg2 arg3 harg3 arg4 harg4 arg5 harg5 arg6 harg6) K } := by
  refine ⟨[], ?_, fun xi3 E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RRuns1B.lean ====
import proofs.«111126_g2000404061440129_pallasbulk_871_15_alg».proof.Proof.RRuns1A

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- A MIDDLE STEP OF A ROW STRIPE (second grid coordinate neither 0 nor 7): the accumulator, at what the step before
    left (`xs0`), has the product of the two blocks added; the output block is not touched. -/
noncomputable def kernelRun1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_spmm_kernel i arg2 harg2 arg3 harg3 arg4 harg4 arg5 harg5 arg6 harg6) K } := by
  refine ⟨[], ?_, fun xi3 E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RRuns1C.lean ====
import proofs.«111126_g2000404061440129_pallasbulk_871_15_alg».proof.Proof.RRuns1B

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- THE LAST STEP OF A ROW STRIPE (second grid coordinate 7): the accumulator, at what the step before left
    (`xs0`), has the product of the two blocks added, and the output block, at anything, is stored at the accumulator
    plus the bias row. -/
noncomputable def kernelRun1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) :
    Σ' (L3 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__adj_spmm_kernel i arg2 harg2 arg3 harg3 arg4 harg4 arg5 harg5 arg6 harg6) K } := by
  refine ⟨?_, ?_, fun E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.Hand

end
-- ==== Proof.RData1.lean ====
import proofs.«111126_g2000404061440129_pallasbulk_871_15_alg».proof.Proof.RRuns1C

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second region (out = adj · support + bias, accumulated over eight column stretches) as proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1 holds its block at every point, fetched there or not, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1 holds its block at every point, fetched there or not, for any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1 holds its block at every point, fetched there or not, for any proof data whose array
    is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each control case leaves in the accumulator and in the output block -/

/-- The first step's pieces for the accumulator cover it. -/
theorem scover1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) (y : S256x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S256x256.size (by sl_kernel_rfl) y

/-- What the first step leaves in the accumulator. -/
def sout1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) : Vec F S256x256 .f32 :=
  VS1_0.read (Elt F) (VS1_0.writes (Elt F) VS1_0.junk (kernelRun1_A c i arg2 harg2 arg3 harg3 arg4 harg4 arg5 harg5 arg6 harg6 hc0 hc1 x0 x1 x2).2.1)

/-- A middle step's pieces for the accumulator cover it. -/
theorem scover1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) (y : S256x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S256x256.size (by sl_kernel_rfl) y

/-- What a middle step leaves in the accumulator. -/
def sout1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) : Vec F S256x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The last step's pieces for the output block cover it. -/
theorem cover1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S256x256.size (by sl_kernel_rfl) y

/-- What the last step leaves in the output block. -/
def out1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) : Vec F S256x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- The last step's pieces for the accumulator cover it. -/
theorem scover1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S256x256.size (by sl_kernel_rfl) y

/-- What the last step leaves in the accumulator. -/
def sout1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) : Vec F S256x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- Where the output block is not stored its component below is a placeholder that nothing consults. -/
def outIdle1 : Vec F S256x256 .f32 := VO1_3.read (Elt F) VO1_3.junk

/-! ## What the output block and the accumulator hold after each point -/

/-- One step: from what the accumulator held (`prev`, not read at the first step of a stripe), the pair (output block,
    accumulator) after the body at point `t`. -/
def stepAt1 (c : Dev nD) (t : Fin cfg1.N) (prev : Vec F S256x256 .f32) : Vec F S256x256 .f32 × Vec F S256x256 .f32 :=
  if h0 : t.val % 8 = 0 then
    (outIdle1, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => absurd ((hcond1_1 t).mp h) (by omega)) (iblk1 V c 0 t) (iblk1 V c 1 t) (iblk1 V c 2 t))
  else if h1 : t.val % 8 = 7 then
    (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev,
     sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev)
  else
    (outIdle1, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev)

/-- THE ACCUMULATION: the pair after the body at position `n`, each step over what the one before left. -/
def outsAt1 (c : Dev nD) : (n : ℕ) → n < cfg1.N → Vec F S256x256 .f32 × Vec F S256x256 .f32
  | 0, hn => stepAt1 V c ⟨0, hn⟩ outIdle1
  | n + 1, hn => stepAt1 V c ⟨n + 1, hn⟩ (outsAt1 c n (Nat.lt_of_succ_lt hn)).2

/-- After a point that is not the first: one step over what the point before left. -/
theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl

/-- At the first step of a stripe. -/
theorem outsAt1_A (c : Dev nD) (t : Fin cfg1.N) (h0 : t.val % 8 = 0) :
    outsAt1 V c t.val t.isLt = (outIdle1, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => absurd ((hcond1_1 t).mp h) (by omega)) (iblk1 V c 0 t) (iblk1 V c 1 t) (iblk1 V c 2 t)) := by
  obtain ⟨n, hn⟩ := t
  cases n with
  | zero => show stepAt1 V c ⟨0, hn⟩ outIdle1 = _; unfold stepAt1; exact dif_pos h0
  | succ n => show stepAt1 V c ⟨n + 1, hn⟩ _ = _; unfold stepAt1; exact dif_pos h0

/-- At a middle step. -/
theorem outsAt1_B (c : Dev nD) (t : Fin cfg1.N) (h0 : ¬t.val % 8 = 0) (h1 : ¬t.val % 8 = 7) :
    outsAt1 V c t.val t.isLt = (outIdle1, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  rw [outsAt1_pos V c t (fun e => h0 (by rw [e]))]
  unfold stepAt1
  exact (dif_neg h0).trans (dif_neg h1)

/-- At the last step of a stripe. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  rw [outsAt1_pos V c t (fun e => h0 (by rw [e]))]
  unfold stepAt1
  exact (dif_neg h0).trans (dif_pos h1)

/-! ## The invariant: the accumulator tracked from point to point -/

/-- The scoped rest of the second region around the accumulator at `S`, and the generator register. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_with (c : Dev nD) : (Pipeline.ΦA spec1 c : sProp 𝕄) = PhiWith1 c iprop(∃ d, owns (c : Thread nD τ) scM1_0 fullShare d) := by
  rw [PhiA1_eq]; rfl

/-- The region invariant before position `n`: before the first point the class's (the accumulator at anything);
    afterwards the accumulator at what the point before left in it. -/
def PhiS1 (c : Dev nD) : (n : ℕ) → n ≤ cfg1.N → sProp 𝕄
  | 0, _ => Pipeline.ΦA spec1 c
  | n + 1, hn => PhiWith1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1_0 fullShare ((outsAt1 V c n hn).2)) := rfl

theorem PhiS1_pos (c : Dev nD) (n : ℕ) (h : n ≤ cfg1.N) (hz : n ≠ 0) :
    PhiS1 V c n h = PhiWith1 c (owns (c : Thread nD τ) scM1_0 fullShare ((outsAt1 V c (n - 1) (by omega)).2)) := by
  cases n with
  | zero => exact absurd rfl hz
  | succ n => rfl

/-! ## The proof data -/

/-- The proof data: the arrays as the region finds them; after the body each input's buffer at its block and the
    output's at `outsAt1`'s first component; the tracking invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_with]
  unfold PhiWith1
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.ReferenceIdeal.Hand

end
-- ==== Proof.RBody1.lean ====
import proofs.«111126_g2000404061440129_pallasbulk_871_15_alg».proof.Proof.RData1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second region's body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the second grid coordinate says which of the three
    control cases the point is in; the invariant hands the body the accumulator at what the point before left (at
    anything at the very first point) and takes it back at this point's contents; where the output block is not
    stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have hc1 : ¬cond1_1 (grid1.coords t) := (fun h => absurd ((hcond1_1 t).mp h) (by omega))
    rw [Dat.leavesExact_idle (dat1 V c) 3 t (idleAt1_3 t hc1) (noFlush1_3 t hc1)]
    rw [outsAt1_A V c t h0]
    unfold sout1_A; (try dsimp only)
    by_cases hz : t.val = 0
    · rw [PhiS1_castSucc V c t, PhiS1_zero V c _ _ hz, PhiA1_with]
      unfold PhiWith1
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => absurd ((hcond1_1 t).mp h) (by omega)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold PhiWith1
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => absurd ((hcond1_1 t).mp h) (by omega)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      unfold PhiWith1
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := (fun h => h1 ((hcond1_1 t).mp h))
      rw [Dat.leavesExact_idle (dat1 V c) 3 t (idleAt1_3 t hc1) (noFlush1_3 t hc1)]
      rw [outsAt1_B V c t h0 h1]
      unfold sout1_B; (try dsimp only)
      rw [PhiS1_castSucc V c t, PhiS1_pos V c _ _ hz]
      unfold PhiWith1
      iintro ⟨⟨⟨HR0, HR1, HR2, HR3, HR4, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RData.lean ====
import proofs.«111126_g2000404061440129_pallasbulk_871_15_alg».proof.Proof.RData0
import proofs.«111126_g2000404061440129_pallasbulk_871_15_alg».proof.Proof.RBody1

/-! The two kernel regions of the reference as proof data: the first region's (`dat0`, `A_eq0`, `body_obligation0`)
    and the second's (`dat1`, `A_eq1`, `body_obligation1`, `hin1`, `hout1`), gathered. -/
-- ==== Proof.RSegBounds.lean ====
import proofs.«111126_g2000404061440129_pallasbulk_871_15_alg».proof.Proof.RData
import proofs.«111126_g2000404061440129_pallasbulk_871_15_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The buffer contents at the boundaries of the two kernel regions

Before the first region every unscoped buffer holds what the nine host stretches leave (the generated fold `Gen.V9`).
A region changes its windows' arrays only: after it they hold what the pipeline's write-backs leave
(`Dat.arrAt … N`) and every other buffer what it held on entry (`Pipeline.withArrays`). -/

variable (m : (ℓ : Loc nD τ sig) → Buf (Elt F) ℓ)

/-- Core `c`'s buffers when region 0 is entered, read at the TensorCore's references. -/
abbrev Vb0 : (c : Dev nD) → (b : Ref sig .tc) → Buf (Elt F) ((c : Thread nD τ).loc b) := fun c b => Gen.V9 m c b

/-- Core `c`'s buffers when region 0 is left: its arrays at what the pipeline leaves, the others as entered. -/
def W10 (c : Dev nD) : Valuation τ sig (Elt F) :=
  Pipeline.withArrays spec0 c (Gen.V9 m c) fun w => (dat0 (Vb0 m) c).arrAt w cfg0.N
theorem W10_arr (c : Dev nD) (w : Fin cfg0.W) :
    W10 m c (Proc.devRef .tc (Pipeline.arrRef spec0 w)) = (dat0 (Vb0 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = Gen.V9 m c (Proc.devRef .tc b) := by
  unfold W10; exact Pipeline.withArrays_of_ne spec0 c _ _ b hb
/-- The same read at the TensorCore's references: region 1's entry contents. -/
abbrev Vb1 : (c : Dev nD) → (b : Ref sig .tc) → Buf (Elt F) ((c : Thread nD τ).loc b) := fun c b => W10 m c b
theorem hF0 (c : Dev nD) (w : Fin cfg0.W) : (dat0 (Vb0 m) c).arrAt w cfg0.N = Vb1 m c (Pipeline.arrRef spec0 w) :=
  (W10_arr m c w).symm
theorem hrest0 (c : Dev nD) : ∀ b, b ∉ Finset.univ.image (Pipeline.arrRef spec0) → Vb1 m c b = Vb0 m c b :=
  fun b hb => W10_of_ne m c b fun w e => hb (Finset.mem_image.mpr ⟨w, Finset.mem_univ _, e⟩)

/-- Core `c`'s buffers when region 1 is left. -/
def W11 (c : Dev nD) : Valuation τ sig (Elt F) :=
  Pipeline.withArrays spec1 c (W10 m c) fun w => (dat1 (Vb1 m) c).arrAt w cfg1.N
theorem W11_arr (c : Dev nD) (w : Fin cfg1.W) :
    W11 m c (Proc.devRef .tc (Pipeline.arrRef spec1 w)) = (dat1 (Vb1 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
abbrev Vb2 : (c : Dev nD) → (b : Ref sig .tc) → Buf (Elt F) ((c : Thread nD τ).loc b) := fun c b => W11 m c b
theorem hF1 (c : Dev nD) (w : Fin cfg1.W) : (dat1 (Vb1 m) c).arrAt w cfg1.N = Vb2 m c (Pipeline.arrRef spec1 w) :=
  (W11_arr m c w).symm
theorem hrest1 (c : Dev nD) : ∀ b, b ∉ Finset.univ.image (Pipeline.arrRef spec1) → Vb2 m c b = Vb1 m c b :=
  fun b hb => W11_of_ne m c b fun w e => hb (Finset.mem_image.mpr ⟨w, Finset.mem_univ _, e⟩)

/-! ## The arguments are never written -/

/-- No host stretch writes an argument. -/
theorem V9_of_arg (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) (h5 : r ∉ Gen.hostOps0_5_W) (h6 : r ∉ Gen.hostOps0_6_W)
    (h7 : r ∉ Gen.hostOps0_7_W) (h8 : r ∉ Gen.hostOps0_8_W) : Gen.V9 m c r = m ((c : Thread nD τ).loc r) :=
  (Gen.V9_of m c r h8).trans <| (Gen.V8_of m c r h7).trans <| (Gen.V7_of m c r h6).trans <| (Gen.V6_of m c r h5).trans <|
    (Gen.V5_of m c r h4).trans <| (Gen.V4_of m c r h3).trans <| (Gen.V3_of m c r h2).trans <| (Gen.V2_of m c r h1).trans <|
    (Gen.V1_of m c r h0).trans rfl

theorem W11_main_arg0 (c : Dev nD) : W11 m c (Proc.devRef .tc main_arg0) = m ((c : Thread nD τ).loc main_arg0) :=
  (W11_of_ne m c main_arg0 (by decide)).trans <| (W10_of_ne m c main_arg0 (by decide)).trans <|
    V9_of_arg m c main_arg0 (by decide) (by decide) (by decide) (by decide) (by decide) (by decide) (by decide) (by decide) (by decide)
theorem W11_main_arg1 (c : Dev nD) : W11 m c (Proc.devRef .tc main_arg1) = m ((c : Thread nD τ).loc main_arg1) :=
  (W11_of_ne m c main_arg1 (by decide)).trans <| (W10_of_ne m c main_arg1 (by decide)).trans <|
    V9_of_arg m c main_arg1 (by decide) (by decide) (by decide) (by decide) (by decide) (by decide) (by decide) (by decide) (by decide)
theorem W11_main_arg2 (c : Dev nD) : W11 m c (Proc.devRef .tc main_arg2) = m ((c : Thread nD τ).loc main_arg2) :=
  (W11_of_ne m c main_arg2 (by decide)).trans <| (W10_of_ne m c main_arg2 (by decide)).trans <|
    V9_of_arg m c main_arg2 (by decide) (by decide) (by decide) (by decide) (by decide) (by decide) (by decide) (by decide) (by decide)
theorem W11_main_arg3 (c : Dev nD) : W11 m c (Proc.devRef .tc main_arg3) = m ((c : Thread nD τ).loc main_arg3) :=
  (W11_of_ne m c main_arg3 (by decide)).trans <| (W10_of_ne m c main_arg3 (by decide)).trans <|
    V9_of_arg m c main_arg3 (by decide) (by decide) (by decide) (by decide) (by decide) (by decide) (by decide) (by decide) (by decide)

end Cert.ReferenceIdeal.Hand
-- ==== Proof.RSegRegions.lean ====
import proofs.«111126_g2000404061440129_pallasbulk_871_15_alg».proof.Proof.RSegBounds
import Idealize.ShloMosaic.Lib.Pipeline.Frame
import Idealize.ShloMosaic.Lib.Pipeline.Regions

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The two kernel regions as segments of @main

Between two items of @main a core holds every unscoped buffer whole at the boundary's contents, beside its generator
register at some state and the fact that it owes nothing. A region takes its windows' arrays out of the unscoped
buffers, runs its pipeline over its proof data, and puts the arrays back at what the pipeline leaves. -/

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (cfgs p) c
  | ⟨0, _⟩ => fun c => dat0 (Vb0 m) c
  | ⟨1, _⟩ => fun c => dat1 (Vb1 m) c

abbrev 𝒱₀ : Variants := Variants.none
/-- No core owes another anything: no level is assigned. -/
abbrev noLevels : GSem nD τ sig → Finset Unit := fun _ => ∅
abbrev lvZero : GSem nD τ sig → Unit → ℕ := fun _ _ => 0
/-- What rides beside the buffers through every segment: the generator register at some state, nothing owed. -/
abbrev rideAlong (c : Dev nD) : sProp 𝕄 := iprop((∃ r, prngReg c r) ∗ ∃ W, owes (c : Thread nD τ) (0 : CellTallies nD τ sig Unit) W)
/-- The same at each of the three stages between the regions. -/
abbrev rideAlongAt : Fin 3 → Dev nD → sProp 𝕄 := fun _ c => rideAlong c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

set_option backward.isDefEq.respectTransparency.types false in
/-- REGION 0 over the thread state: entered from every unscoped buffer at what the host stretches leave, left at
    `W10`. Its arrays are split out of the unscoped buffers and put back at the exit contents; the generator register
    goes into the class invariant and comes back; nothing is owed; the kernel has no semaphore of its own. -/
def reg0 : Pipeline.RegionSeg (pcfgs (F := F)) Gen.adm (pdats m) () defs₀ 𝒱₀ noLevels lvZero 0 where
  win := launch0.win.to₀
  block_pos := launch0.block_pos
  stage_whole := launch0.stage_whole
  K := PEmpty
  osem k := k.elim
  ho := Pipeline.OwnSemFacts.none _
  hbody c := (body_obligation0 (Vb0 m) c).loose
  hwaits := Pipeline.hwaits_of_owed_zero _ _ _ _ noLevels lvZero 0 fun _ _ => rfl
  pre c := iprop(StableHlo.held (c : Thread nD τ) (Pipeline.ucRefs τ sig) (Gen.V9 m c) ∗ rideAlong c)
  post c := iprop(StableHlo.held (c : Thread nD τ) (Pipeline.ucRefs τ sig) (W10 m c) ∗ rideAlong c)
  X c := iprop(∃ r, prngReg c r)
  Y c := iprop(∃ r, prngReg c r)
  Z c := Pipeline.unscopedRest (Ix := Unit) (Name := ℕ) (U := UR sig nD τ) (Lvl := ℕ) spec0 c (Vb0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vb0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vb0 m c) (Vb1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W10`, left at `W11` beside the core owing
    nothing. As region 0, but the body's invariant tracks the accumulator from point to point: it starts from the class
    invariant (`hin1`) and ends in it (`hout1`). -/
def reg1 : Pipeline.RegionSeg (pcfgs (F := F)) Gen.adm (pdats m) () defs₀ 𝒱₀ noLevels lvZero 1 where
  win := launch1.win.to₀
  block_pos := launch1.block_pos
  stage_whole := launch1.stage_whole
  K := PEmpty
  osem k := k.elim
  ho := Pipeline.OwnSemFacts.none _
  hbody c := (body_obligation1 (Vb1 m) c).loose
  hwaits := Pipeline.hwaits_of_owed_zero _ _ _ _ noLevels lvZero 1 fun _ _ => rfl
  pre c := iprop(StableHlo.held (c : Thread nD τ) (Pipeline.ucRefs τ sig) (W10 m c) ∗ rideAlong c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (Vb1 m) c)
    unfold Pipeline.ΦA
    iintro ⟨Hp, -, Hr⟩
    isplitl [Hr]; · iexact Hr
    iexact Hp
  hout c := by
    refine BIBase.Entails.trans (show (pdats m 1 c).Φ (Fin.last _) ⊢ (Pipeline.ΦA spec1 c : sProp 𝕄) from hout1 (Vb1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vb1 m c) (Vb2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.ReferenceIdeal.Hand
-- ==== Proof.RSegRun.lean ====
import proofs.«111126_g2000404061440129_pallasbulk_871_15_alg».proof.Proof.RSegRegions
import Idealize.ShloMosaic.Lib.Pipeline.Frame
import Idealize.ShloMosaic.Lib.Pipeline.Regions

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The run of @main: nine host stretches, then the two regions

@main is the chain of its eleven items. The nine host stretches run over every unscoped buffer held at a valuation;
the two regions are the records of the previous module. At the end every unscoped buffer holds the last boundary's
contents `W11`. -/

local notation "𝕄" => MT nD τ sig Unit (Elt F) ℕ (UR sig nD τ) ℕ

variable (m : (ℓ : Loc nD τ sig) → Buf (Elt F) ℓ) (ρ : Dev nD → PrngReg)

/-- @main's items as segments, the same list on every core. -/
abbrev mainSegs (c : Dev nD) : List (Pipeline.Seg (pcfgs (F := F)) Gen.adm (pdats m) () defs₀ 𝒱₀ noLevels lvZero) :=
  Gen.segs m 𝒱₀ noLevels lvZero rideAlongAt () (pdats m) (reg0 m) (reg1 m) c

set_option backward.isDefEq.respectTransparency.types false in
/-- Every weakly fair execution of @main from memory `m` with zero counters terminates, and in every final memory each
    unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) Gen.adm (pdats m) () cellOf_inj emb₁ defs₀ 𝒱₀ noLevels lvZero m ρ main
    (mainSegs m)
    (fun c Q => by
      rewrite [main_chain c, Pipeline.Seg.run_eq_chain,
        show (mainSegs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [mainSegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rideAlong c)) (Tₙ := Tₙ m)
    (hch := fun c => ⟨.rfl, .rfl, .rfl, .rfl, .rfl, .rfl, .rfl, .rfl, .rfl, .rfl, .rfl, .rfl⟩)
    (hinit := by
      refine Pipeline.initEach noLevels lvZero fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME, at any float instance: the run terminates and every argument array ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩

/-- info: 'Cert.ReferenceIdeal.Hand.run_frame' depends on axioms: [propext, Classical.choice, Quot.sound] -/
#guard_msgs in #print axioms run_frame

end Cert.ReferenceIdeal.Hand
-- ==== Proof.RSegHost.lean ====
import proofs.«111126_g2000404061440129_pallasbulk_871_15_alg».proof.Proof.RSegBounds
import proofs.«111126_g2000404061440129_pallasbulk_871_15_alg».proof.Proof.HostOps
import Idealize.ShloMosaic.Lib.StableHlo.Run

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the host stretches leave in the regions' operands

Each argument is padded by nothing on every side, which changes nothing; the bias vector is then reshaped to one row. -/

open Idealize.ShloMosaic.StableHlo

variable (m : (ℓ : Loc nD τ sig) → Buf (Elt F) ℓ)

/-- Padding `x` by nothing leaves `x`. -/
theorem V2_main_v0 (c : Dev nD) : Gen.V2 m c main_v0 = m ((c : Thread nD τ).loc main_arg0) := by
  show StableHlo.after Gen.hostOps0_1 (Gen.V1 m c) (Proc.devRef .tc main_v0) = _
  after_results
  exact Cert.Gcn.HostOps.pad_4096x256 _ _ pads_S4096x256_S4096x256_000_000 h_S_

/-- Padding the adjacency matrix by nothing leaves it. -/
theorem V4_main_v1 (c : Dev nD) : Gen.V4 m c main_v1 = m ((c : Thread nD τ).loc main_arg1) := by
  show StableHlo.after Gen.hostOps0_3 (Gen.V3 m c) (Proc.devRef .tc main_v1) = _
  after_results
  exact Cert.Gcn.HostOps.pad_4096x4096 _ _ pads_S4096x4096_S4096x4096_000_000 h_S_

/-- Padding the weights by nothing leaves them. -/
theorem V6_main_v2 (c : Dev nD) : Gen.V6 m c main_v2 = m ((c : Thread nD τ).loc main_arg2) := by
  show StableHlo.after Gen.hostOps0_5 (Gen.V5 m c) (Proc.devRef .tc main_v2) = _
  after_results
  exact Cert.Gcn.HostOps.pad_256x256 _ _ pads_S256x256_S256x256_000_000 h_S_

/-- Padding the bias by nothing leaves it. -/
theorem V8_main_v3 (c : Dev nD) : Gen.V8 m c main_v3 = m ((c : Thread nD τ).loc main_arg3) := by
  show StableHlo.after Gen.hostOps0_7 (Gen.V7 m c) (Proc.devRef .tc main_v3) = _
  after_results
  exact Cert.Gcn.HostOps.pad_256 _ _ pads_S256_S256_000 h_S_

/-- The bias as one row: entry `(0, j)` is the bias at `j`. -/
theorem V9_main_v4 (c : Dev nD) (j : Fin 256) :
    (Gen.V9 m c main_v4 : S1x256.Idx → Elt F .f32) (ValueIdx.ix2 (0 : Fin 1) j) = (m ((c : Thread nD τ).loc main_arg3) : S256.Idx → Elt F .f32) (ValueIdx.ix1 j) := by
  show StableHlo.after Gen.hostOps0_8 (Gen.V8 m c) (Proc.devRef .tc main_v4) _ = _
  after_results
  refine (Cert.Gcn.HostOps.reshape_256_1x256_apply _ shapeCasts_S256_S1x256 j).trans ?_
  exact congrFun (Cert.Gcn.HostOps.pad_256 _ _ pads_S256_S256_000 h_S_) _

/-! ## The same, read when the first region is entered: the later stretches write other buffers -/

theorem V9_main_v0 (c : Dev nD) : Gen.V9 m c main_v0 = m ((c : Thread nD τ).loc main_arg0) :=
  (Gen.V9_of m c main_v0 (by decide)).trans <| (Gen.V8_of m c main_v0 (by decide)).trans <| (Gen.V7_of m c main_v0 (by decide)).trans <|
    (Gen.V6_of m c main_v0 (by decide)).trans <| (Gen.V5_of m c main_v0 (by decide)).trans <| (Gen.V4_of m c main_v0 (by decide)).trans <|
    (Gen.V3_of m c main_v0 (by decide)).trans (V2_main_v0 m c)
theorem V9_main_v1 (c : Dev nD) : Gen.V9 m c main_v1 = m ((c : Thread nD τ).loc main_arg1) :=
  (Gen.V9_of m c main_v1 (by decide)).trans <| (Gen.V8_of m c main_v1 (by decide)).trans <| (Gen.V7_of m c main_v1 (by decide)).trans <|
    (Gen.V6_of m c main_v1 (by decide)).trans <| (Gen.V5_of m c main_v1 (by decide)).trans (V4_main_v1 m c)
theorem V9_main_v2 (c : Dev nD) : Gen.V9 m c main_v2 = m ((c : Thread nD τ).loc main_arg2) :=
  (Gen.V9_of m c main_v2 (by decide)).trans <| (Gen.V8_of m c main_v2 (by decide)).trans <| (Gen.V7_of m c main_v2 (by decide)).trans (V6_main_v2 m c)

end Cert.ReferenceIdeal.Hand
-- ==== Proof.RPay.lean ====
/-
  The reference's stored values, entry by entry, over extended reals.

  Stage 1 stores a 256-row tile of the product x · w: a finite sum at each entry. Stage 2 stores the zero matrix
  at the first step of a row of blocks, then at each step the accumulator plus the product of a 256 × 512 block of adj
  with the matching 512 × 256 block of the stage-1 product, and at the last step the accumulator plus the bias row
  laid along every row.
-/
import proofs.«111126_g2000404061440129_pallasbulk_871_15_alg».proof.Proof.Spec
import proofs.«111126_g2000404061440129_pallasbulk_871_15_alg».proof.Proof.HostOps
import proofs.«111126_g2000404061440129_pallasbulk_871_15_alg».proof.Proof.MatmulAt
import proofs.«111126_g2000404061440129_pallasbulk_871_15_alg».proof.Proof.Gen.ReferenceIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Pay

open Cert.ReferenceIdeal Cert.ReferenceIdeal.Gen Idealize.ShloMosaic Idealize.ShloMosaic.ValueIdx

variable [Facts]

/-- Stage 1's stored tile at (r, c): the sum over j of x(r, j) · w(j, c). -/
theorem k0_pay1_apply (x : Vec Ideal S256x256 .f32) (w : Vec Ideal S256x256 .f32) (r : Fin 256) (c : Fin 256) :
    Gen.k0_pay1 (F := Ideal) x w (ix2 r c) = ∑ j : Fin 256, x (ix2 r j) * w (ix2 j c) := by
  have e : matmul (F := Ideal) (φ₁ := .f32) (φ₂ := .f32) dot_S256x256_S256x256_S256x256_1_0_0_1_n_n none x w
        (constant (F := Ideal) S256x256 .f32 0x00000000#32) (ix2 r c)
      = ∑ j : Fin 256, x (ix2 r j) * w (ix2 j c) :=
    Cert.Gcn.MatmulAt.matmul_zero_ix2 (φ₁ := .f32) (φ₂ := .f32) Facts₀.dot_S256x256_S256x256_S256x256_1_0_0_1_n_n_wf none x w r c
  unfold Gen.k0_pay1
  simp only [shapeCast_self]
  exact e

/-- Stage 2's first stored value is zero at every entry. -/
theorem k1_pay1_apply (r : Fin 256) (c : Fin 256) : Gen.k1_pay1 (F := Ideal) (ix2 r c) = 0 := by
  unfold Gen.k1_pay1
  simp only [shapeCast_self, broadcast_apply]
  exact Ideal.ofBits_zero_f32

/-- Stage 2's accumulated value at (r, c): the accumulator there plus the block product's sum. -/
theorem k1_pay2_apply (acc : Vec Ideal S256x256 .f32) (a : Vec Ideal S256x512 .f32) (s : Vec Ideal S512x256 .f32)
    (r : Fin 256) (c : Fin 256) :
    Gen.k1_pay2 (F := Ideal) acc a s (ix2 r c) = acc (ix2 r c) + ∑ k : Fin 512, a (ix2 r k) * s (ix2 k c) := by
  have e : matmul (F := Ideal) (φ₁ := .f32) (φ₂ := .f32) dot_S256x512_S512x256_S256x256_1_0_0_1_n_n none a s
        (constant (F := Ideal) S256x256 .f32 0x00000000#32) (ix2 r c)
      = ∑ k : Fin 512, a (ix2 r k) * s (ix2 k c) :=
    Cert.Gcn.MatmulAt.matmul_zero_ix2 (φ₁ := .f32) (φ₂ := .f32) Facts₀.dot_S256x512_S512x256_S256x256_1_0_0_1_n_n_wf none a s r c
  unfold Gen.k1_pay2
  simp only [shapeCast_self, addf_apply]
  rw [e]

/-- Stage 2's last stored value at (r, c): the accumulator there plus the bias at c. -/
theorem k1_pay3_apply (acc : Vec Ideal S256x256 .f32) (bias : Vec Ideal S1x256 .f32) (r : Fin 256) (c : Fin 256) :
    Gen.k1_pay3 (F := Ideal) acc bias (ix2 r c) = acc (ix2 r c) + bias (ix2 (0 : Fin 1) c) := by
  unfold Gen.k1_pay3
  simp only [shapeCast_self, addf_apply]
  rw [Cert.Gcn.HostOps.broadcast_1x256_256x256_apply]

end Cert.ReferenceIdeal.Pay

end
-- ==== Proof.RValue0.lean ====
import proofs.«111126_g2000404061440129_pallasbulk_871_15_alg».proof.Proof.Spec
import proofs.«111126_g2000404061440129_pallasbulk_871_15_alg».proof.Proof.RPay
import proofs.«111126_g2000404061440129_pallasbulk_871_15_alg».proof.Proof.RData0
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Idealize.ShloMosaic.ValueIdx
open Cert.ReferenceIdeal.Pay
open scoped BigOperators

/-! # What the first region leaves in its output array: x · w -/

theorem hz0 : (![0, 0] : Fin 2 → Nat) = fun _ => 0 := funext fun a => by fin_cases a <;> rfl

/-- The body's output block, entry by entry: row of the first block times column of the second. -/
theorem out0_2_apply (x0 x1 : Vec Ideal S256x256 .f32) (r c : Fin 256) :
    out0_2 x0 x1 (ix2 r c) = ∑ j : Fin 256, x0 (ix2 r j) * x1 (ix2 j c) := by
  unfold out0_2
  rw [View.canon_unit_zero hz0]
  simp only [View.ld_unit_zero (S := S256x256) hz0]
  exact k0_pay1_apply x0 x1 r c

/-- The same at any index of the block. -/
theorem out0_2_at (x0 x1 : Vec Ideal S256x256 .f32) (y : S256x256.Idx) :
    out0_2 x0 x1 y = ∑ j : Fin 256, x0 (ix2 (⟨(y 0).val, idx2_lt0 y⟩ : Fin 256) j) * x1 (ix2 j (⟨(y 1).val, idx2_lt1 y⟩ : Fin 256)) := by
  obtain ⟨r, c, rfl⟩ : ∃ (r c : Fin 256), y = ix2 r c := ⟨_, _, eq_ix2 y⟩
  exact out0_2_apply x0 x1 r c

/-- If the two blocks are the rows of `x` and the columns of `w` that entry `i` of the product needs, the block's
    entry is the product's. -/
theorem block0_eq (x : Cert.Gcn.SX.Idx → EReal) (w : Cert.Gcn.SW.Idx → EReal) (x0 x1 : Vec Ideal S256x256 .f32)
    (y : S256x256.Idx) (i : S4096x256.Idx)
    (h0 : ∀ j : Fin 256, x0 (ix2 (⟨(y 0).val, idx2_lt0 y⟩ : Fin 256) j) = x (ix2 (⟨(i 0).val, idx2_lt0 i⟩ : Fin 4096) j))
    (h1 : ∀ j : Fin 256, x1 (ix2 j (⟨(y 1).val, idx2_lt1 y⟩ : Fin 256)) = w (ix2 j (⟨(i 1).val, idx2_lt1 i⟩ : Fin 256))) :
    out0_2 x0 x1 y = Cert.Gcn.suppArr x w i := by
  rw [out0_2_at]
  unfold Cert.Gcn.suppArr
  exact Finset.sum_congr rfl fun j _ => by rw [h0 j, h1 j]

/-- The printed index maps, decided over the grid: the x window and the output window are at row block `t`, the w
    window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The x window's block at point `t` is rows 256 t … 256 t + 255 of x. -/
theorem iblk0_0_apply (c : Dev nD) (t : Fin cfg0.N) (y : S256x256.Idx) (k : S4096x256.Idx)
    (hk0 : (k 0).val = 256 * t.val + (y 0).val) (hk1 : (k 1).val = (y 1).val) :
    (iblk0 V c 0 t : Vec Ideal S256x256 .f32) y = (V c main_v0 : S4096x256.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 256 + 1 * (y 0).val = (k 0).val; rw [e0, hk0]; omega
  | ⟨1, _⟩ => show win0_0.index t 1 * 256 + 1 * (y 1).val = (k 1).val; rw [e1, hk1]; omega

/-- The w window's block at any point is w. -/
theorem iblk0_1_apply (c : Dev nD) (t : Fin cfg0.N) (y : S256x256.Idx) (k : S256x256.Idx)
    (hk0 : (k 0).val = (y 0).val) (hk1 : (k 1).val = (y 1).val) :
    (iblk0 V c 1 t : Vec Ideal S256x256 .f32) y = (V c main_v2 : S256x256.Idx → EReal) k := by
  obtain ⟨-, -, e2, e3, -⟩ := idx_facts0 t
  unfold iblk0
  rw [View.read_apply]
  show V c main_v2 _ = V c main_v2 _
  congr 1
  funext a
  apply Fin.ext
  match a with
  | ⟨0, _⟩ => show win0_1.index t 0 * 256 + 1 * (y 0).val = (k 0).val; rw [e2, hk0]; omega
  | ⟨1, _⟩ => show win0_1.index t 1 * 256 + 1 * (y 1).val = (k 1).val; rw [e3, hk1]; omega

/-- What point `t` writes back is block `t` of x · w. -/
theorem flushed0_eq (c : Dev nD) (t : Fin cfg0.N) :
    (dat0 V c).flushed 2 t = ((cfg0.win 2).blk t).view.read (Elt Ideal) (Cert.Gcn.suppArr (V c main_v0) (V c main_v2)) := by
  show (cfg0.win 2).cut (grid0.coords t) ((dat0 V c).after 2 t) = _
  rw [after0_2]
  obtain ⟨-, -, -, -, e4, e5⟩ := idx_facts0 t
  funext y
  have p0 : ((((cfg0.win 2).blk t).view.emb y) 0).val = win0_2.index t 0 * 256 + 1 * (y 0).val := rfl
  have p1 : ((((cfg0.win 2).blk t).view.emb y) 1).val = win0_2.index t 1 * 256 + 1 * (y 1).val := rfl
  refine block0_eq (V c main_v0) (V c main_v2) (iblk0 V c 0 t) (iblk0 V c 1 t) y (((cfg0.win 2).blk t).view.emb y) (fun j => ?_) (fun j => ?_)
  · refine iblk0_0_apply V c t _ _ ?_ rfl
    show ((((cfg0.win 2).blk t).view.emb y) 0).val = 256 * t.val + (y 0).val
    rw [p0, e4]; omega
  · refine iblk0_1_apply V c t _ _ rfl ?_
    show ((((cfg0.win 2).blk t).view.emb y) 1).val = (y 1).val
    rw [p1, e5]; omega

/-- An index of the array is in point `t`'s block iff each coordinate is in the block's range on its axis. -/
theorem mem_blk0 (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v5).slice (win0_2.rect t)).set ↔ _
  rw [View.set_slice_whole, Rect.mem_set_unit]
  exact Iff.rfl

/-- Row r of the array is in the block of point r / 256. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 16 := N_0
  refine ⟨⟨(i 0).val / 256, by rw [hN]; omega⟩, flush0_2 _, ?_⟩
  rw [mem_blk0]
  obtain ⟨-, -, -, -, e4, e5⟩ := idx_facts0 ⟨(i 0).val / 256, by rw [hN]; omega⟩
  intro a
  match a with
  | ⟨0, _⟩ => show win0_2.index _ (0 : Fin 2) * 256 ≤ (i 0).val ∧ (i 0).val < win0_2.index _ (0 : Fin 2) * 256 + 256; rw [e4]; dsimp only; omega
  | ⟨1, _⟩ => show win0_2.index _ (1 : Fin 2) * 256 ≤ (i 1).val ∧ (i 1).val < win0_2.index _ (1 : Fin 2) * 256 + 256; rw [e5]; omega

/-- The first region's output array ends holding the product of its two input arrays. -/
theorem arrAt0_out (c : Dev nD) : (dat0 (F := Ideal) V c).arrAt 2 cfg0.N = Cert.Gcn.suppArr (V c main_v0) (V c main_v2) :=
  (dat0 V c).arrAt_eq_of_cover 2 (Cert.Gcn.suppArr (V c main_v0) (V c main_v2)) (fun t _ => flushed0_eq V c t) cover0

end Cert.ReferenceIdeal.Hand

end
-- ==== Proof.RValue1a.lean ====
import proofs.«111126_g2000404061440129_pallasbulk_871_15_alg».proof.Proof.Spec
import proofs.«111126_g2000404061440129_pallasbulk_871_15_alg».proof.Proof.RPay
import proofs.«111126_g2000404061440129_pallasbulk_871_15_alg».proof.Proof.RData1
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Idealize.ShloMosaic.ValueIdx
open Cert.ReferenceIdeal.Pay
open scoped BigOperators

/-! # The second region, case by case: what the body's stores leave, as payloads of the blocks -/

theorem hz1 : (![0, 0] : Fin 2 → Nat) = fun _ => 0 := funext fun a => by fin_cases a <;> rfl

/-- The first step of a stripe leaves, in the accumulator, zero plus the product of the two blocks. -/
theorem soutA_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i) (x0 : Vec F S256x512 .f32) (x1 : Vec F S512x256 .f32) (x2 : Vec F S1x256 .f32) :
    sout1_A c i arg2 harg2 arg3 harg3 arg4 harg4 arg5 harg5 arg6 harg6 hc0 hc1 x0 x1 x2 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  try sl_unfold_words
  rw [View.canon_cons_unit_zero hz1, View.readCov_unit_zero (S := S256x256) _ hz1]
  simp only [View.readAt_eq_ld, harg2.read_unread, harg3.read_unread, View.ld_unit_zero (S := S256x512) hz1, View.ld_unit_zero (S := S512x256) hz1]

/-- A middle step leaves, in the accumulator, what it held plus the product of the two blocks. -/
theorem soutB_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i) (x0 : Vec F S256x512 .f32) (x1 : Vec F S512x256 .f32) (x2 : Vec F S1x256 .f32) (xs0 : Vec F S256x256 .f32) :
    sout1_B c i arg2 harg2 arg3 harg3 arg4 harg4 arg5 harg5 arg6 harg6 hc0 hc1 x0 x1 x2 xs0 = k1_pay2 xs0 x0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  try sl_unfold_words
  rw [View.canon_unit_zero hz1]
  simp only [View.readAt_eq_ld, harg2.read_unread, harg3.read_unread, harg6.read_unread, View.ld_unit_zero (S := S256x512) hz1, View.ld_unit_zero (S := S512x256) hz1, View.ld_unit_zero (S := S256x256) hz1]

/-- The last step leaves the same in the accumulator, -/
theorem soutC_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x512 .f32) (x1 : Vec F S512x256 .f32) (x2 : Vec F S1x256 .f32) (xs0 : Vec F S256x256 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  try sl_unfold_words
  rw [View.canon_unit_zero hz1]
  simp only [View.readAt_eq_ld, harg2.read_unread, harg3.read_unread, harg6.read_unread, View.ld_unit_zero (S := S256x512) hz1, View.ld_unit_zero (S := S512x256) hz1, View.ld_unit_zero (S := S256x256) hz1]

/-- and, in the output block, that plus the bias row. -/
theorem outC_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x512 .f32) (x1 : Vec F S512x256 .f32) (x2 : Vec F S1x256 .f32) (xs0 : Vec F S256x256 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  try sl_unfold_words
  rw [View.canon_unit_zero hz1, View.readCov_unit_zero (S := S256x256) _ hz1]
  simp only [View.readAt_eq_ld, harg2.read_unread, harg3.read_unread, harg4.read_unread, harg6.read_unread, View.ld_unit_zero (S := S256x512) hz1, View.ld_unit_zero (S := S512x256) hz1, View.ld_unit_zero (S := S256x256) hz1, View.ld_unit_zero (S := S1x256) hz1]

/-! # The arithmetic of one step, over the extended reals -/

open Cert.Gcn

/-- The accumulating payload at any index of the block. -/
theorem pay2_at (acc : Vec Ideal S256x256 .f32) (a : Vec Ideal S256x512 .f32) (s : Vec Ideal S512x256 .f32) (y : S256x256.Idx) :
    k1_pay2 (F := Ideal) acc a s y = acc y + ∑ k : Fin 512, a (ix2 (⟨(y 0).val, idx2_lt0 y⟩ : Fin 256) k) * s (ix2 k (⟨(y 1).val, idx2_lt1 y⟩ : Fin 256)) := by
  obtain ⟨r, c, rfl⟩ : ∃ (r c : Fin 256), y = ix2 r c := ⟨_, _, eq_ix2 y⟩
  exact k1_pay2_apply acc a s r c

/-- The zero payload at any index. -/
theorem pay1_at (y : S256x256.Idx) : k1_pay1 (F := Ideal) y = 0 := by
  obtain ⟨r, c, rfl⟩ : ∃ (r c : Fin 256), y = ix2 r c := ⟨_, _, eq_ix2 y⟩
  exact k1_pay1_apply r c

/-- The bias payload at any index. -/
theorem pay3_at (acc : Vec Ideal S256x256 .f32) (bias : Vec Ideal S1x256 .f32) (y : S256x256.Idx) :
    k1_pay3 (F := Ideal) acc bias y = acc y + bias (ix2 (0 : Fin 1) (⟨(y 1).val, idx2_lt1 y⟩ : Fin 256)) := by
  obtain ⟨r, c, rfl⟩ : ∃ (r c : Fin 256), y = ix2 r c := ⟨_, _, eq_ix2 y⟩
  exact k1_pay3_apply acc bias r c

/-- The accumulator's value does not depend on how its arguments are spelt. -/
theorem accR_congr (adj : SA.Idx → EReal) (s : SX.Idx → EReal) {r r' : Fin 4096} {c c' : Fin 256} {k k' : ℕ}
    (hr : r = r') (hc : c = c') (hk : k = k') (h : k ≤ 8) (h' : k' ≤ 8) : accR adj s r c k h = accR adj s r' c' k' h' := by
  subst hr; subst hc; subst hk; rfl

/-- One more stretch. -/
theorem accR_succ (adj : SA.Idx → EReal) (s : SX.Idx → EReal) (r : Fin 4096) (c : Fin 256) (k : ℕ) (h : k + 1 ≤ 8) :
    accR adj s r c (k + 1) h = accR adj s r c k (by omega) + rowSum adj s r c (512 * k) 512 (by omega) := rfl

/-- What the accumulator holds after position `n` of the grid (row stripe n / 8, column stretch n % 8): for each
    row of the stripe the first n % 8 + 1 stretches accumulated. -/
def accBlk (adj : SA.Idx → EReal) (s : SX.Idx → EReal) (n : ℕ) (hn : n < 128) : Vec Ideal S256x256 .f32 := fun y =>
  accR adj s (⟨256 * (n / 8) + (y 0).val, by have := idx2_lt0 y; omega⟩ : Fin 4096) (⟨(y 1).val, idx2_lt1 y⟩ : Fin 256) (n % 8 + 1) (by omega)

/-- ONE STEP: if the accumulator held the first n % 8 stretches and the two blocks are the stripe's rows of adj over
    stretch n % 8 and that stretch's rows of s, the accumulating payload is the first n % 8 + 1 stretches. -/
theorem step_eq (adj : SA.Idx → EReal) (s : SX.Idx → EReal) (n : ℕ) (hn : n < 128)
    (acc : Vec Ideal S256x256 .f32) (a : Vec Ideal S256x512 .f32) (b : Vec Ideal S512x256 .f32)
    (hacc : ∀ y : S256x256.Idx, acc y = accR adj s (⟨256 * (n / 8) + (y 0).val, by have := idx2_lt0 y; omega⟩ : Fin 4096) (⟨(y 1).val, idx2_lt1 y⟩ : Fin 256) (n % 8) (by omega))
    (ha : ∀ (r : Fin 256) (k : Fin 512), a (ix2 r k) = adj (ix2 (⟨256 * (n / 8) + r.val, by omega⟩ : Fin 4096) (⟨512 * (n % 8) + k.val, by omega⟩ : Fin 4096)))
    (hb : ∀ (k : Fin 512) (c : Fin 256), b (ix2 k c) = s (ix2 (⟨512 * (n % 8) + k.val, by omega⟩ : Fin 4096) c)) :
    k1_pay2 (F := Ideal) acc a b = accBlk adj s n hn := by
  funext y
  rw [pay2_at, hacc y]
  unfold accBlk
  rw [accR_succ]
  congr 1
  unfold rowSum
  exact Finset.sum_congr rfl fun k _ => by rw [ha, hb]

/-- THE LAST STEP'S OUTPUT: the eight stretches plus the bias is the layer's entry. -/
theorem blockOut_eq (adj : SA.Idx → EReal) (s : SX.Idx → EReal) (b : SB.Idx → EReal) (n : ℕ) (hn : n < 128) (h7 : n % 8 = 7)
    (bias : Vec Ideal S1x256 .f32) (y : S256x256.Idx) (i : S4096x256.Idx)
    (hi0 : (i 0).val = 256 * (n / 8) + (y 0).val) (hi1 : (i 1).val = (y 1).val)
    (hb : ∀ c : Fin 256, bias (ix2 (0 : Fin 1) c) = b (ix1 c)) :
    k1_pay3 (F := Ideal) (accBlk adj s n hn) bias y = GR adj s b i := by
  rw [pay3_at, hb]
  unfold GR accBlk
  have e1 : (⟨(i 1).val, idx2_lt1 i⟩ : Fin 256) = ⟨(y 1).val, idx2_lt1 y⟩ := Fin.ext hi1
  rw [e1]
  congr 1
  exact accR_congr adj s (Fin.ext hi0.symm) rfl (by omega) _ _

end Cert.ReferenceIdeal.Hand

end
-- ==== Proof.RValue1.lean ====
import proofs.«111126_g2000404061440129_pallasbulk_871_15_alg».proof.Proof.RValue1a

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Idealize.ShloMosaic.ValueIdx
open Cert.ReferenceIdeal.Pay
open Cert.Gcn
open scoped BigOperators

/-! # What the second region leaves in its output array: eight stretches of adj · support accumulated, plus the bias -/

/-- The printed index maps, decided over the grid: at position t the adj window is at block (t / 8, t % 8), the
    support window at row block t % 8, the bias window at its one block, the output window at row block t / 8. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

variable (V : (c : Dev nD) → (b : Ref sig .tc) → Buf (Elt Ideal) ((c : Thread nD τ).loc b))

/-! ## Each input block as a part of its array -/

theorem iblk1_0_apply (c : Dev nD) (t : Fin cfg1.N) (y : S256x512.Idx) (k : S4096x4096.Idx)
    (hk0 : (k 0).val = 256 * (t.val / 8) + (y 0).val) (hk1 : (k 1).val = 512 * (t.val % 8) + (y 1).val) :
    (iblk1 V c 0 t : Vec Ideal S256x512 .f32) y = (V c main_v1 : S4096x4096.Idx → EReal) k := by
  obtain ⟨e0, e1, -⟩ := idx_facts1 t
  unfold iblk1
  rw [View.read_apply]
  show V c main_v1 _ = V c main_v1 _
  congr 1
  funext a
  apply Fin.ext
  match a with
  | ⟨0, _⟩ => show win1_0.index t 0 * 256 + 1 * (y 0).val = (k 0).val; rw [e0, hk0]; omega
  | ⟨1, _⟩ => show win1_0.index t 1 * 512 + 1 * (y 1).val = (k 1).val; rw [e1, hk1]; omega

theorem iblk1_1_apply (c : Dev nD) (t : Fin cfg1.N) (y : S512x256.Idx) (k : S4096x256.Idx)
    (hk0 : (k 0).val = 512 * (t.val % 8) + (y 0).val) (hk1 : (k 1).val = (y 1).val) :
    (iblk1 V c 1 t : Vec Ideal S512x256 .f32) y = (V c main_v5 : S4096x256.Idx → EReal) k := by
  obtain ⟨-, -, e0, e1, -⟩ := idx_facts1 t
  unfold iblk1
  rw [View.read_apply]
  show V c main_v5 _ = V c main_v5 _
  congr 1
  funext a
  apply Fin.ext
  match a with
  | ⟨0, _⟩ => show win1_1.index t 0 * 512 + 1 * (y 0).val = (k 0).val; rw [e0, hk0]; omega
  | ⟨1, _⟩ => show win1_1.index t 1 * 256 + 1 * (y 1).val = (k 1).val; rw [e1, hk1]; omega

theorem iblk1_2_apply (c : Dev nD) (t : Fin cfg1.N) (y : S1x256.Idx) (k : S1x256.Idx)
    (hk0 : (k 0).val = (y 0).val) (hk1 : (k 1).val = (y 1).val) :
    (iblk1 V c 2 t : Vec Ideal S1x256 .f32) y = (V c main_v4 : S1x256.Idx → EReal) k := by
  obtain ⟨-, -, -, -, e0, e1, -⟩ := idx_facts1 t
  unfold iblk1
  rw [View.read_apply]
  show V c main_v4 _ = V c main_v4 _
  congr 1
  funext a
  apply Fin.ext
  match a with
  | ⟨0, _⟩ => show win1_2.index t 0 * 1 + 1 * (y 0).val = (k 0).val; rw [e0, hk0]; omega
  | ⟨1, _⟩ => show win1_2.index t 1 * 256 + 1 * (y 1).val = (k 1).val; rw [e1, hk1]; omega

/-! ## The accumulator, point by point -/

theorem accR_of_zero (adj : SA.Idx → EReal) (s : SX.Idx → EReal) (r : Fin 4096) (c : Fin 256) (k : ℕ) (hk : k = 0) (h : k ≤ 8) :
    accR adj s r c k h = 0 := by
  subst hk; rfl

/-- THE INVARIANT: after the body at position t the accumulator holds, for each row of stripe t / 8, the first
    t % 8 + 1 stretches of that row of adj · support. By induction on the position: a stripe's first step starts
    from zero, every other step adds its stretch onto what the step before left. -/
theorem acc_inv (c : Dev nD) : ∀ (n : ℕ) (t : Fin cfg1.N), t.val = n →
    (outsAt1 V c t.val t.isLt).2 = accBlk (V c main_v1) (V c main_v5) t.val (lt_of_lt_of_eq t.isLt N_1) := by
  intro n
  induction n using Nat.strong_induction_on with
  | _ n ih =>
    intro t ht
    have hN : t.val < 128 := lt_of_lt_of_eq t.isLt N_1
    have ha : ∀ (r : Fin 256) (k : Fin 512), (iblk1 V c 0 t : Vec Ideal S256x512 .f32) (ix2 r k)
        = (V c main_v1 : S4096x4096.Idx → EReal) (ix2 (⟨256 * (t.val / 8) + r.val, by omega⟩ : Fin 4096) (⟨512 * (t.val % 8) + k.val, by omega⟩ : Fin 4096)) :=
      fun r k => iblk1_0_apply V c t _ _ rfl rfl
    have hb : ∀ (k : Fin 512) (cc : Fin 256), (iblk1 V c 1 t : Vec Ideal S512x256 .f32) (ix2 k cc)
        = (V c main_v5 : S4096x256.Idx → EReal) (ix2 (⟨512 * (t.val % 8) + k.val, by omega⟩ : Fin 4096) cc) :=
      fun k cc => iblk1_1_apply V c t _ _ rfl rfl
    by_cases h0 : t.val % 8 = 0
    · rw [outsAt1_A V c t h0]
      dsimp only
      rw [soutA_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => absurd ((hcond1_1 t).mp h) (by omega)) (iblk1 V c 0 t) (iblk1 V c 1 t) (iblk1 V c 2 t)]
      exact step_eq (V c main_v1) (V c main_v5) t.val hN _ _ _
        (fun y => (pay1_at y).trans (accR_of_zero _ _ _ _ _ h0 _).symm) ha hb
    · have hz : t.val ≠ 0 := fun e => h0 (by rw [e])
      have hp : (outsAt1 V c (t.val - 1) (Nat.lt_of_le_of_lt (Nat.sub_le _ _) t.isLt)).2 = accBlk (V c main_v1) (V c main_v5) (t.val - 1) (by omega) :=
        ih (t.val - 1) (by omega) ⟨t.val - 1, Nat.lt_of_le_of_lt (Nat.sub_le _ _) t.isLt⟩ rfl
      have hacc : ∀ y : S256x256.Idx, (outsAt1 V c (t.val - 1) (Nat.lt_of_le_of_lt (Nat.sub_le _ _) t.isLt)).2 y
          = accR (V c main_v1) (V c main_v5) (⟨256 * (t.val / 8) + (y 0).val, by have := idx2_lt0 y; omega⟩ : Fin 4096) (⟨(y 1).val, idx2_lt1 y⟩ : Fin 256) (t.val % 8) (by omega) := by
        intro y
        rw [hp]
        unfold accBlk
        exact accR_congr _ _ (Fin.ext (by dsimp only; omega)) rfl (by omega) _ _
      by_cases h1 : t.val % 8 = 7
      · rw [outsAt1_C V c t h0 h1]
        dsimp only
        rw [soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
        exact step_eq (V c main_v1) (V c main_v5) t.val hN _ _ _ hacc ha hb
      · rw [outsAt1_B V c t h0 h1]
        dsimp only
        rw [soutB_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2]
        exact step_eq (V c main_v1) (V c main_v5) t.val hN _ _ _ hacc ha hb

/-- At a stripe's last step the output block is the accumulator plus the bias row. -/
theorem out_last (c : Dev nD) (t : Fin cfg1.N) (h7 : t.val % 8 = 7) :
    (outsAt1 V c t.val t.isLt).1
      = k1_pay3 (F := Ideal) (accBlk (V c main_v1) (V c main_v5) t.val (lt_of_lt_of_eq t.isLt N_1)) (iblk1 V c 2 t) := by
  have h0 : ¬t.val % 8 = 0 := by omega
  rw [← acc_inv V c t.val t rfl, outsAt1_C V c t h0 h7]
  dsimp only
  rw [outC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2,
    soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2]

/-! ## From the blocks to the array -/

/-- The bias as a function of the column: the [1, 256] row the second region is handed. -/
abbrev biasRow (c : Dev nD) : SB.Idx → EReal :=
  fun i => V c main_v4 (ix2 (0 : Fin 1) (⟨(i 0).val, by have := (i 0).isLt; simpa using this⟩ : Fin 256))

/-- What a stripe's last point writes back is its block of the layer's result. -/
theorem flushed1_eq (c : Dev nD) (t : Fin cfg1.N) (hf : (cfg1.win 3).flush t = true) :
    (dat1 V c).flushed 3 t = ((cfg1.win 3).blk t).view.read (Elt Ideal) (GR (V c main_v1) (V c main_v5) (biasRow V c)) := by
  have h7 : t.val % 8 = 7 := (flush1_3 t).mp hf
  have hN : t.val < 128 := lt_of_lt_of_eq t.isLt N_1
  obtain ⟨-, -, -, -, -, -, e6, e7⟩ := idx_facts1 t
  show (cfg1.win 3).cut (grid1.coords t) ((dat1 V c).after 3 t) = _
  rw [after1_3, out_last V c t h7]
  funext y
  have p0 : ((((cfg1.win 3).blk t).view.emb y) 0).val = win1_3.index t 0 * 256 + 1 * (y 0).val := rfl
  have p1 : ((((cfg1.win 3).blk t).view.emb y) 1).val = win1_3.index t 1 * 256 + 1 * (y 1).val := rfl
  refine blockOut_eq (V c main_v1) (V c main_v5) (biasRow V c) t.val hN h7 (iblk1 V c 2 t) y (((cfg1.win 3).blk t).view.emb y) ?_ ?_ (fun cc => ?_)
  · rw [p0, e6]; omega
  · rw [p1, e7]; omega
  · exact iblk1_2_apply V c t _ _ rfl rfl

/-- An index of the array is in point t's block iff each coordinate is in the block's range on its axis. -/
theorem mem_blk1 (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v6).slice (win1_3.rect t)).set ↔ _
  rw [View.set_slice_whole, Rect.mem_set_unit]
  exact Iff.rfl

/-- Row r of the array is in the block written back at the last point of stripe r / 256. -/
theorem cover1 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 128 := N_1
  refine ⟨⟨8 * ((i 0).val / 256) + 7, by rw [hN]; omega⟩, (flush1_3 _).mpr (by dsimp only; omega), ?_⟩
  rw [mem_blk1]
  obtain ⟨-, -, -, -, -, -, e6, e7⟩ := idx_facts1 ⟨8 * ((i 0).val / 256) + 7, by rw [hN]; omega⟩
  intro a
  match a with
  | ⟨0, _⟩ => show win1_3.index _ (0 : Fin 2) * 256 ≤ (i 0).val ∧ (i 0).val < win1_3.index _ (0 : Fin 2) * 256 + 256; rw [e6]; dsimp only; omega
  | ⟨1, _⟩ => show win1_3.index _ (1 : Fin 2) * 256 ≤ (i 1).val ∧ (i 1).val < win1_3.index _ (1 : Fin 2) * 256 + 256; rw [e7]; omega

/-- The second region's output array ends holding the eight accumulated stretches of each row plus the bias. -/
theorem arrAt1_out (c : Dev nD) : (dat1 (F := Ideal) V c).arrAt 3 cfg1.N
    = Cert.Gcn.GR (V c main_v1) (V c main_v5) (fun i => V c main_v4 (ix2 (0 : Fin 1) (⟨(i 0).val, by have := (i 0).isLt; simpa using this⟩ : Fin 256))) :=
  (dat1 V c).arrAt_eq_of_cover 3 (GR (V c main_v1) (V c main_v5) (biasRow V c)) (fun t hf => flushed1_eq V c t hf) cover1

end Cert.ReferenceIdeal.Hand

end
-- ==== Proof.RRun.lean ====
import proofs.«111126_g2000404061440129_pallasbulk_871_15_alg».proof.Proof.RSegRun
import proofs.«111126_g2000404061440129_pallasbulk_871_15_alg».proof.Proof.RSegHost
import proofs.«111126_g2000404061440129_pallasbulk_871_15_alg».proof.Proof.RValue0
import proofs.«111126_g2000404061440129_pallasbulk_871_15_alg».proof.Proof.RValue1

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The value of the run at the ideal instance

The last boundary's contents at the result buffer are what the second region's write-backs leave: the eight stretches of
512 columns accumulated from zero, plus the bias, over the support the first region leaves, which is the product x · w.
The operands are the launch's arguments: the host stretches pad by nothing and reshape the bias to one row. -/

open Idealize.ShloMosaic.ValueIdx

variable (m : (ℓ : Loc nD τ sig) → Buf (Elt Ideal) ℓ) (ρ : Dev nD → PrngReg)

/-- The adjacency operand of the second region is the launch's. -/
theorem Vb1_main_v1 (c : Dev nD) : Vb1 m c main_v1 = m ((c : Thread nD τ).loc main_arg1) :=
  (W10_of_ne m c main_v1 (by decide)).trans (V9_main_v1 m c)

/-- The support the first region leaves is x · w of the launch's arguments. -/
theorem Vb1_main_v5 (c : Dev nD) :
    Vb1 m c main_v5 = Cert.Gcn.suppArr (m ((c : Thread nD τ).loc main_arg0)) (m ((c : Thread nD τ).loc main_arg2)) := by
  refine (W10_arr m c 2).trans ((arrAt0_out (Vb0 m) c).trans ?_)
  rw [show Vb0 m c main_v0 = m ((c : Thread nD τ).loc main_arg0) from V9_main_v0 m c,
    show Vb0 m c main_v2 = m ((c : Thread nD τ).loc main_arg2) from V9_main_v2 m c]

/-- The bias row the second region reads is the launch's bias. -/
theorem Vb1_main_v4 (c : Dev nD) (i : Cert.Gcn.SB.Idx) (h : (i 0).val < 256) :
    Vb1 m c main_v4 (ix2 (0 : Fin 1) (⟨(i 0).val, h⟩ : Fin 256)) = m ((c : Thread nD τ).loc main_arg3) i :=
  (congrFun (W10_of_ne m c main_v4 (by decide)) _).trans
    ((V9_main_v4 m c ⟨(i 0).val, h⟩).trans (congrArg (m ((c : Thread nD τ).loc main_arg3)) (eq_ix1 i).symm))

/-- The result buffer at the last boundary. -/
theorem W11_main_v6 (c : Dev nD) : W11 m c (Proc.devRef .tc main_v6)
    = Cert.Gcn.GR (m ((c : Thread nD τ).loc main_arg1))
        (Cert.Gcn.suppArr (m ((c : Thread nD τ).loc main_arg0)) (m ((c : Thread nD τ).loc main_arg2)))
        (m ((c : Thread nD τ).loc main_arg3)) := by
  refine (W11_arr m c 3).trans ((arrAt1_out (Vb1 m) c).trans ?_)
  rw [Vb1_main_v1, Vb1_main_v5]
  refine congrArg _ (funext fun i => ?_)
  exact Vb1_main_v4 m c i _

/-- THE RUN'S VALUE: every weakly fair execution of @main from memory `m` with zero counters terminates, and every final
    memory holds adj · (x · w) + bias, in the reference's order of summation, in the result buffer and the arguments as launched. -/
theorem run_value : θ_run (defs (F := Ideal)) (onTc (τ := τ) (main (F := Ideal))) ⟨m, fun _ => 0, ρ⟩ (fun r => ∀ c : Dev nD,
      r.2.mem ((c.tc : Thread nD τ).loc main_v6) = Cert.Gcn.GR (m ((c.tc : Thread nD τ).loc main_arg1))
          (Cert.Gcn.suppArr (m ((c.tc : Thread nD τ).loc main_arg0)) (m ((c.tc : Thread nD τ).loc main_arg2)))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_v6 (by decide))).trans (W11_main_v6 m c),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩

/-- info: 'Cert.ReferenceIdeal.Hand.run_value' depends on axioms: [propext, Classical.choice, Quot.sound] -/
#guard_msgs in #print axioms run_value

end Cert.ReferenceIdeal.Hand
-- ==== Proof.SpecLaw.lean ====
/-
  The two groupings of a row of adj · s agree.

  A stretch of `n₁ + n₂` columns is the stretch of the first `n₁` plus the stretch of the next `n₂`
  (`rowSum_add`). Hence the two halves of 2048 columns add up to the whole row of 4096 columns, and so do eight
  stretches of 512 columns accumulated from zero. Addition of extended reals is associative and commutative,
  so no finiteness is needed anywhere.
-/
import proofs.«111126_g2000404061440129_pallasbulk_871_15_alg».proof.Proof.Spec

noncomputable section

namespace Cert.Gcn

open Idealize.ShloMosaic Idealize.ShloMosaic.ValueIdx

/-- A stretch of `n₁ + n₂` columns splits after its first `n₁` columns. -/
theorem rowSum_add (adj : SA.Idx → EReal) (s : SX.Idx → EReal) (r : Fin 4096) (c : Fin 256) (lo n₁ n₂ : ℕ)
    (h : lo + (n₁ + n₂) ≤ 4096) :
    rowSum adj s r c lo (n₁ + n₂) h
      = rowSum adj s r c lo n₁ (by omega) + rowSum adj s r c (lo + n₁) n₂ (by omega) := by
  unfold rowSum
  rw [Fin.sum_univ_add]
  congr 1
  refine Finset.sum_congr rfl fun k _ => ?_
  have e : lo + (Fin.natAdd n₁ k).val = lo + n₁ + k.val := by
    show lo + (n₁ + k.val) = lo + n₁ + k.val
    omega
  simp only [e]

/-- The bound of a stretch is irrelevant data: equal starts and lengths give equal stretches. -/
theorem rowSum_congr (adj : SA.Idx → EReal) (s : SX.Idx → EReal) (r : Fin 4096) (c : Fin 256) {lo lo' n n' : ℕ}
    (hlo : lo = lo') (hn : n = n') (h : lo + n ≤ 4096) :
    rowSum adj s r c lo n h = rowSum adj s r c lo' n' (by omega) := by
  subst hlo; subst hn; rfl

/-- The accumulator after `n` stretches of 512 columns is the stretch of the first `512 n` columns. -/
theorem accR_eq (adj : SA.Idx → EReal) (s : SX.Idx → EReal) (r : Fin 4096) (c : Fin 256) :
    ∀ (n : ℕ) (h : n ≤ 8), accR adj s r c n h = rowSum adj s r c 0 (512 * n) (by omega)
  | 0, _ => by
    show (0 : EReal) = rowSum adj s r c 0 (512 * 0) _
    rw [rowSum_congr adj s r c (lo := 0) (lo' := 0) (n := 512 * 0) (n' := 0) rfl (by omega) (by omega)]
    unfold rowSum
    exact (Fin.sum_univ_zero _).symm
  | n + 1, h => by
    show accR adj s r c n (by omega) + rowSum adj s r c (512 * n) 512 (by omega) = _
    rw [accR_eq adj s r c n (by omega)]
    rw [rowSum_congr adj s r c (lo := 0) (lo' := 0) (n := 512 * (n + 1)) (n' := 512 * n + 512) rfl (by omega) (by omega)]
    rw [rowSum_add adj s r c 0 (512 * n) 512 (by omega)]
    congr 1
    exact rowSum_congr adj s r c (by omega) rfl (by omega)

/-- The kernel-shaped and the reference-shaped functions are the same function. -/
theorem GK_eq_GR (adj : SA.Idx → EReal) (s : SX.Idx → EReal) (b : SB.Idx → EReal) : GK adj s b = GR adj s b := by
  funext i
  unfold GK GR
  congr 1
  rw [accR_eq adj s _ _ 8 (le_refl _)]
  rw [rowSum_congr adj s _ _ (lo := 0) (lo' := 0) (n := 512 * 8) (n' := 2048 + 2048) rfl (by omega) (by omega)]
  rw [rowSum_add adj s _ _ 0 2048 2048 (by omega)]

end Cert.Gcn

end
-- ==== Proof.lean ====
/-
  The dense graph-convolution layer: the fused kernel against the two-stage reference.

  Both programs compute adjacency · (features · weights) + bias. The fused kernel keeps the product
  features · weights in a scratch buffer and adds each row's 4096 terms as two halves of 2048; the reference computes the
  product in a first kernel and accumulates each row's terms in eight stretches of 512 in a second. On the extended
  reals a change of float format is the identity and addition is associative and commutative, so the two results are
  equal entry by entry, whatever the inputs (`Cert.Gcn.GK_eq_GR`); the precondition is not used.
  The frames: each program runs to the end without a fault and leaves its four arguments unchanged — for the kernel
  at both instances from the run of its one region (two of whose windows read one array, the array's share halved
  between them), for the reference from the run of its two regions.
-/
import proofs.«111126_g2000404061440129_pallasbulk_871_15_alg».proof.Defs
import proofs.«111126_g2000404061440129_pallasbulk_871_15_alg».proof.Proof.Gen.Kernel
import proofs.«111126_g2000404061440129_pallasbulk_871_15_alg».proof.Proof.Gen.KernelIdeal
import proofs.«111126_g2000404061440129_pallasbulk_871_15_alg».proof.Proof.Gen.ReferenceIdeal
import proofs.«111126_g2000404061440129_pallasbulk_871_15_alg».proof.Proof.Gen.Pre_finite_inputs
import proofs.«111126_g2000404061440129_pallasbulk_871_15_alg».proof.Proof.BRun
import proofs.«111126_g2000404061440129_pallasbulk_871_15_alg».proof.Proof.KFinal
import proofs.«111126_g2000404061440129_pallasbulk_871_15_alg».proof.Proof.RRun
import proofs.«111126_g2000404061440129_pallasbulk_871_15_alg».proof.Proof.SpecLaw
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run_value m ρ)

/-- Both idealized programs end with the result array at adjacency · (features · weights) + bias of the arguments: the
    kernel's row sums in two halves, the reference's in eight stretches, one value. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2.1, (hagree c).2.2.2]
  exact (Cert.Gcn.GK_eq_GR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
